-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel
  bcast_S_S10x8 : S_.BroadcastsInDim S10x8 (![] : Fin 0 → Fin S10x8.rank)
  reducesTo_S10x8_S_d0_1 : S10x8.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S8x10 : S_.BroadcastsInDim S8x10 (![] : Fin 0 → Fin S8x10.rank)
  reducesTo_S8x10_S_d0_1 : S8x10.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg4 : FVec F S10x10 .f32) (main_arg5 : FVec F S10 .f32) (main_arg6 : FVec F S8x10 .f32) (main_arg7 : FVec F S8 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S8x10 .f32 := Host.absf main_arg6
  let main_cst_10 : FVec F S_ .f32 := constant S_ .f32 0x7F800000#32
  let main_v30 : FVec F S8x10 .f32 := broadcastInDim S8x10 ![] bcast_S_S8x10 main_cst_10
  let main_v31 : IVec S8x10 1 := cmpf .olt main_v29 main_v30
  let main_c_11 : IVec S_ 1 := constantI S_ 1 1#1
  let main_v32 : IVec S_ 1 := (fun x v => Host.reduce IntOp.andi x v reducesTo_S8x10_S_d0_1 h_S_) main_v31 main_c_11
  let main_v33 : IVec S_ 1 := andi main_v28 main_v32
  fn_part2 (F := F) main_arg7 main_v33

def fn {F : FTy → Type} [FloatOps F] (main_arg0 : FVec F S65536x8 .f32) (main_arg1 : FVec F S65536x8 .f32) (main_arg2 : FVec F S10x8 .f32) (main_arg3 : FVec F S10 .f32) (main_arg4 : FVec F S10x10 .f32) (main_arg5 : FVec F S10 .f32) (main_arg6 : FVec F S8x10 .f32) (main_arg7 : FVec F S8 .f32) : IVec S_ 1 :=
  let main_v0 : FVec F S65536x8 .f32 := Host.absf main_arg0
  let main_cst : FVec F S_ .f32 := constant S_ .f32 0x7F800000#32
  let main_v1 : FVec F S65536x8 .f32 := broadcastInDim S65536x8 ![] bcast_S_S65536x8 main_cst
  let main_v2 : IVec S65536x8 1 := cmpf .olt main_v0 main_v1
  let main_c : IVec S_ 1 := constantI S_ 1 1#1
  let main_v3 : IVec S_ 1 := (fun x v => Host.reduce IntOp.andi x v reducesTo_S65536x8_S_d0_1 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  let main_v9 : FVec F S10x8 .f32 := Host.absf main_arg2
  let main_cst_2 : FVec F S_ .f32 := constant S_ .f32 0x7F800000#32
  let main_v10 : FVec F S10x8 .f32 := broadcastInDim S10x8 ![] bcast_S_S10x8 main_cst_2
  let main_v11 : IVec S10x8 1 := cmpf .olt main_v9 main_v10
  let main_c_3 : IVec S_ 1 := constantI S_ 1 1#1
  let main_v12 : IVec S_ 1 := (fun x v => Host.reduce IntOp.andi x v reducesTo_S10x8_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S15x256 : Shape := ⟨2, ![15, 256]⟩
abbrev S65536 : Shape := ⟨1, ![65536]⟩
abbrev S8192x8 : Shape := ⟨2, ![8192, 8]⟩
abbrev S8192 : Shape := ⟨1, ![8192]⟩
abbrev S8192x10 : Shape := ⟨2, ![8192, 10]⟩
abbrev S1x10 : Shape := ⟨2, ![1, 10]⟩
abbrev S1x8 : Shape := ⟨2, ![1, 8]⟩
abbrev S8192x7 : Shape := ⟨2, ![8192, 7]⟩
abbrev S8192x15 : Shape := ⟨2, ![8192, 15]⟩
abbrev S8192x256 : Shape := ⟨2, ![8192, 256]⟩

abbrev nBuf : Space → Nat
  | .hbm => 13
  | .vmem => 13
  | .smem => 0
  | _ => 0

abbrev bufTy : (tb : Table) → Fin (tcTables nBuf tb) → BufTy
  | .hbm, ⟨0, _⟩ => ⟨S65536x8, .f32⟩
  | .hbm, ⟨1, _⟩ => ⟨S65536x8, .f32⟩
  | .hbm, ⟨2, _⟩ => ⟨S10x8, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S8x10, .f32⟩
  | .hbm, ⟨7, _⟩ => ⟨S8, .f32⟩
  | .hbm, ⟨8, _⟩ => ⟨S15x256, .f32⟩
  | .hbm, ⟨9, _⟩ => ⟨S8x10, .f32⟩
  | .hbm, ⟨10, _⟩ => ⟨S10x10, .f32⟩
  | .hbm, ⟨11, _⟩ => ⟨S10x8, .f32⟩
  | .hbm, ⟨12, _⟩ => ⟨S65536, .f32⟩
  | .local _ .vmem, ⟨0, _⟩ => ⟨S8192x8, .f32⟩
  | .local _ .vmem, ⟨1, _⟩ => ⟨S8192x8, .f32⟩
  | .local _ .vmem, ⟨2, _⟩ => ⟨S8192x8, .f32⟩
  | .local _ .vmem, ⟨3, _⟩ => ⟨S8192x8, .f32⟩
  | .local _ .vmem, ⟨4, _⟩ => ⟨S8x10, .f32⟩
  | .local _ .vmem, ⟨5, _⟩ => ⟨S10, .f32⟩
  | .local _ .vmem, ⟨6, _⟩ => ⟨S10x10, .f32⟩
  | .local _ .vmem, ⟨7, _⟩ => ⟨S10, .f32⟩
  | .local _ .vmem, ⟨8, _⟩ => ⟨S10x8, .f32⟩
  | .local _ .vmem, ⟨9, _⟩ => ⟨S8, .f32⟩
  | .local _ .vmem, ⟨10, _⟩ => ⟨S15x256, .f32⟩
  | .local _ .vmem, ⟨11, _⟩ => ⟨S8192, .f32⟩
  | .local _ .vmem, ⟨12, _⟩ => ⟨S8192, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S10x8_S8x10_1_0 : S10x8.Transposes [1, 0] S8x10
  transposes_S10x10_S10x10_1_0 : S10x10.Transposes [1, 0] S10x10
  transposes_S8x10_S10x8_1_0 : S8x10.Transposes [1, 0] S10x8
  inb_S8x10_S8x10_0_0 : ∀ a, (![0, 0] : Fin 2 → Nat) a + S8x10.size a ≤ S8x10.size a
  h_S8x10 : 0 < S8x10.numel
  shapeCasts_S8x10_S8x10 : S8x10.ShapeCasts S8x10
  inb_S10_S10_0 : ∀ a, (![0] : Fin 1 → Nat) a + S10.size a ≤ S10.size a
  h_S10 : 0 < S10.numel
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S10x8_S10x8_0_0 : ∀ a, (![0, 0] : Fin 2 → Nat) a + S10x8.size a ≤ S10x8.size a
  h_S10x8 : 0 < S10x8.numel
  shapeCasts_S10x8_S10x8 : S10x8.ShapeCasts S10x8
  inb_S8_S8_0 : ∀ a, (![0] : Fin 1 → Nat) a + S8.size a ≤ S8.size a
  h_S8 : 0 < S8.numel
  inb_S15x256_S15x256_0_0 : ∀ a, (![0, 0] : Fin 2 → Nat) a + S15x256.size a ≤ S15x256.size a
  h_S15x256 : 0 < S15x256.numel
  inb_S8192x8_S8192x8_0_0 : ∀ a, (![0, 0] : Fin 2 → Nat) a + S8192x8.size a ≤ S8192x8.size a
  h_S8192x8 : 0 < S8192x8.numel
  shapeCasts_S10_S1x10 : S10.ShapeCasts S1x10
  broadcasts_S1x10_S8192x10 : S1x10.Broadcasts S8192x10
  shapeCasts_S8_S1x8 : S8.ShapeCasts S1x8
  broadcasts_S1x8_S8192x8 : S1x8.Broadcasts S8192x8
  slices_S8192x8_o0_0_S8192x7 : S8192x8.Slices ![0, 0] S8192x7
  slices_S8192x8_o0_1_S8192x7 : S8192x8.Slices ![0, 1] S8192x7
  concatenates_S8192x8_S8192x7_S8192x15_d1 : Shape.Concatenates [S8192x8, S8192x7] S8192x15 1
  reduces_S8192x256_S8192 : S8192x256.Reduces [1] S8192
  inb_S8192_S8192_0 : ∀ a, (![0] : Fin 1 → Nat) a + S8192.size a ≤ S8192.size a
  h_S8192 : 0 < S8192.numel
  dot_S8192x8_S8x10_S8192x10_1_0_0_1_n_n_wf : DotDims.WF S8192x8 S8x10 S8192x10 [1] [0] [0] [1] [] []
  dot_S8192x10_S10x10_S8192x10_1_0_0_1_n_n_wf : DotDims.WF S8192x10 S10x10 S8192x10 [1] [0] [0] [1] [] []
  dot_S8192x10_S10x8_S8192x8_1_0_0_1_n_n_wf : DotDims.WF S8192x10 S10x8 S8192x8 [1] [0] [0] [1] [] []
  dot_S8192x15_S15x256_S8192x256_1_0_0_1_n_n_wf : DotDims.WF S8192x15 S15x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S65536x8.size a
  hwx0_0 : ∀ i : grid0.Coords, EltTy.bits .f32 = 32 ∨ (Rect.block (s := S65536x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S65536x8.size a
  hwx0_1 : ∀ i : grid0.Coords, EltTy.bits .f32 = 32 ∨ (Rect.block (s := S65536x8) S8192x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x10.size a ≤ S8x10.size a
  hwx0_2 : ∀ i : grid0.Coords, EltTy.bits .f32 = 32 ∨ (Rect.block (s := S8x10) S8x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10.size a ≤ S10.size a
  hwx0_5 : ∀ i : grid0.Coords, EltTy.bits .f32 = 32 ∨ (Rect.block (s := S10) S10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x8.size a ≤ S10x8.size a
  hwx0_6 : ∀ i : grid0.Coords, EltTy.bits .f32 = 32 ∨ (Rect.block (s := S10x8) S10x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S15x256.size a ≤ S15x256.size a
  hwx0_8 : ∀ i : grid0.Coords, EltTy.bits .f32 = 32 ∨ (Rect.block (s := S15x256) S15x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192.size a ≤ S65536.size a
  hwx0_9 : ∀ i : grid0.Coords, EltTy.bits .f32 = 32 ∨ (Rect.block (s := S65536) S8192.size (cc0_transform_9 i) (hinb0_9 i)).WholeWords (EltTy.packing .f32)

variable [Facts₀]

def dot_S8192x8_S8x10_S8192x10_1_0_0_1_n_n : DotDims S8192x8 S8x10 S8192x10 where
  lhsContracting := [1]
  rhsContracting := [0]
  lhsNonContracting := [0]
  rhsNonContracting := [1]
  lhsBatch := []
  rhsBatch := []
  wf := dot_S8192x8_S8x10_S8192x10_1_0_0_1_n_n_wf
def dot_S8192x10_S10x10_S8192x10_1_0_0_1_n_n : DotDims S8192x10 S10x10 S8192x10 where
  lhsContracting := [1]
  rhsContracting := [0]
  lhsNonContracting := [0]
  rhsNonContracting := [1]
  lhsBatch := []
  rhsBatch := []
  wf := dot_S8192x10_S10x10_S8192x10_1_0_0_1_n_n_wf
def dot_S8192x10_S10x8_S8192x8_1_0_0_1_n_n : DotDims S8192x10 S10x8 S8192x8 where
  lhsContracting := [1]
  rhsContracting := [0]
  lhsNonContracting := [0]
  rhsNonContracting := [1]
  lhsBatch := []
  rhsBatch := []
  wf := dot_S8192x10_S10x8_S8192x8_1_0_0_1_n_n_wf
def dot_S8192x15_S15x256_S8192x256_1_0_0_1_n_n : DotDims S8192x15 S15x256 S8192x256 where
  lhsContracting := [1]
  rhsContracting := [0]
  lhsNonContracting := [0]
  rhsNonContracting := [1]
  lhsBatch := []
  rhsBatch := []
  wf := dot_S8192x15_S15x256_S8192x256_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S10x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst) S15x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x8 : Shape := ⟨2, ![65536, 8]⟩
abbrev S10x8 : Shape := ⟨2, ![10, 8]⟩
abbrev S10 : Shape := ⟨1, ![10]⟩
abbrev S10x10 : Shape := ⟨2, ![10, 10]⟩
abbrev S8x10 : Shape := ⟨2, ![8, 10]⟩
abbrev S8 : Shape := ⟨1, ![8]⟩
abbrev S256x8 : Shape := ⟨2, ![256, 8]⟩
abbrev S256x7 : Shape := ⟨2, ![256, 7]⟩
abbrev S65536x10 : Shape := ⟨2, ![65536, 10]⟩
abbrev S1x10 : Shape := ⟨2, ![1, 10]⟩
abbrev S_ : Shape := ⟨0, ![]⟩
abbrev S1x8 : Shape := ⟨2, ![1, 8]⟩
abbrev S8x256 : Shape := ⟨2, ![8, 256]⟩
abbrev S65536x256 : Shape := ⟨2, ![65536, 256]⟩
abbrev S65536x7 : Shape := ⟨2, ![65536, 7]⟩
abbrev S7x256 : Shape := ⟨2, ![7, 256]⟩
abbrev S65536 : Shape := ⟨1, ![65536]⟩

abbrev nBuf : Space → Nat
  | .hbm => 83
  | .vmem => 0
  | .smem => 0
  | _ => 0

abbrev bufTy : (tb : Table) → Fin (tcTables nBuf tb) → BufTy
  | .hbm, ⟨0, _⟩ => ⟨S65536x8, .f32⟩
  | .hbm, ⟨1, _⟩ => ⟨S65536x8, .f32⟩
  | .hbm, ⟨2, _⟩ => ⟨S10x8, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S8x10, .f32⟩
  | .hbm, ⟨7, _⟩ => ⟨S8, .f32⟩
  | .hbm, ⟨8, _⟩ => ⟨S256x8, .f32⟩
  | .hbm, ⟨9, _⟩ => ⟨S256x7, .f32⟩
  | .hbm, ⟨10, _⟩ => ⟨S8x10, .f32⟩
  | .hbm, ⟨11, _⟩ => ⟨S65536x10, .f32⟩
  | .hbm, ⟨12, _⟩ => ⟨S1x10, .f32⟩
  | .hbm, ⟨13, _⟩ => ⟨S65536x10, .f32⟩
  | .hbm, ⟨14, _⟩ => ⟨S65536x10, .f32⟩
  | .hbm, ⟨15, _⟩ => ⟨S_, .f32⟩
  | .hbm, ⟨16, _⟩ => ⟨S65536x10, .f32⟩
  | .hbm, ⟨17, _⟩ => ⟨S65536x10, .f32⟩
  | .hbm, ⟨18, _⟩ => ⟨S10x10, .f32⟩
  | .hbm, ⟨19, _⟩ => ⟨S65536x10, .f32⟩
  | .hbm, ⟨20, _⟩ => ⟨S1x10, .f32⟩
  | .hbm, ⟨21, _⟩ => ⟨S65536x10, .f32⟩
  | .hbm, ⟨22, _⟩ => ⟨S65536x10, .f32⟩
  | .hbm, ⟨23, _⟩ => ⟨S_, .f32⟩
  | .hbm, ⟨24, _⟩ => ⟨S65536x10, .f32⟩
  | .hbm, ⟨25, _⟩ => ⟨S65536x10, .f32⟩
  | .hbm, ⟨26, _⟩ => ⟨S10x8, .f32⟩
  | .hbm, ⟨27, _⟩ => ⟨S65536x8, .f32⟩
  | .hbm, ⟨28, _⟩ => ⟨S1x8, .f32⟩
  | .hbm, ⟨29, _⟩ => ⟨S65536x8, .f32⟩
  | .hbm, ⟨30, _⟩ => ⟨S65536x8, .f32⟩
  | .hbm, ⟨31, _⟩ => ⟨S8x10, .f32⟩
  | .hbm, ⟨32, _⟩ => ⟨S65536x10, .f32⟩
  | .hbm, ⟨33, _⟩ => ⟨S1x10, .f32⟩
  | .hbm, ⟨34, _⟩ => ⟨S65536x10, .f32⟩
  | .hbm, ⟨35, _⟩ => ⟨S65536x10, .f32⟩
  | .hbm, ⟨36, _⟩ => ⟨S_, .f32⟩
  | .hbm, ⟨37, _⟩ => ⟨S65536x10, .f32⟩
  | .hbm, ⟨38, _⟩ => ⟨S65536x10, .f32⟩
  | .hbm, ⟨39, _⟩ => ⟨S10x10, .f32⟩
  | .hbm, ⟨40, _⟩ => ⟨S65536x10, .f32⟩
  | .hbm, ⟨41, _⟩ => ⟨S1x10, .f32⟩
  | .hbm, ⟨42, _⟩ => ⟨S65536x10, .f32⟩
  | .hbm, ⟨43, _⟩ => ⟨S65536x10, .f32⟩
  | .hbm, ⟨44, _⟩ => ⟨S_, .f32⟩
  | .hbm, ⟨45, _⟩ => ⟨S65536x10, .f32⟩
  | .hbm, ⟨46, _⟩ => ⟨S65536x10, .f32⟩
  | .hbm, ⟨47, _⟩ => ⟨S10x8, .f32⟩
  | .hbm, ⟨48, _⟩ => ⟨S65536x8, .f32⟩
  | .hbm, ⟨49, _⟩ => ⟨S1x8, .f32⟩
  | .hbm, ⟨50, _⟩ => ⟨S65536x8, .f32⟩
  | .hbm, ⟨51, _⟩ => ⟨S65536x8, .f32⟩
  | .hbm, ⟨52, _⟩ => ⟨S_, .f32⟩
  | .hbm, ⟨53, _⟩ => ⟨S65536x8, .f32⟩
  | .hbm, ⟨54, _⟩ => ⟨S65536x8, .f32⟩
  | .hbm, ⟨55, _⟩ => ⟨S8x256, .f32⟩
  | .hbm, ⟨56, _⟩ => ⟨S65536x256, .f32⟩
  | .hbm, ⟨57, _⟩ => ⟨S65536x7, .f32⟩
  | .hbm, ⟨58, _⟩ => ⟨S65536x7, .f32⟩
  | .hbm, ⟨59, _⟩ => ⟨S65536x7, .f32⟩
  | .hbm, ⟨60, _⟩ => ⟨S7x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x8, .f32⟩
  | .hbm, ⟨66, _⟩ => ⟨S65536x8, .f32⟩
  | .hbm, ⟨67, _⟩ => ⟨S8x256, .f32⟩
  | .hbm, ⟨68, _⟩ => ⟨S65536x256, .f32⟩
  | .hbm, ⟨69, _⟩ => ⟨S65536x7, .f32⟩
  | .hbm, ⟨70, _⟩ => ⟨S65536x7, .f32⟩
  | .hbm, ⟨71, _⟩ => ⟨S65536x7, .f32⟩
  | .hbm, ⟨72, _⟩ => ⟨S7x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536, .f32⟩
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call2_cst : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call3_cst : Ref sig .tc := ⟨.hbm, 44, rfl⟩
abbrev main_call3_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  transposes_S10x8_S8x10_1_0 : S10x8.Transposes [1, 0] S8x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  bcast_S_S65536x10 : S_.BroadcastsInDim S65536x10 (![] : Fin 0 → Fin S65536x10.rank)
  transposes_S10x10_S10x10_1_0 : S10x10.Transposes [1, 0] S10x10
  transposes_S8x10_S10x8_1_0 : S8x10.Transposes [1, 0] S10x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  transposes_S256x8_S8x256_1_0 : S256x8.Transposes [1, 0] S8x256
  slices_S65536x8_S65536x7_0_0 : S65536x8.Slices ![0, 0] S65536x7
  slices_S65536x8_S65536x7_0_1 : S65536x8.Slices ![0, 1] S65536x7
  transposes_S256x7_S7x256_1_0 : S256x7.Transposes [1, 0] S7x256
  reducesTo_S65536x256_S65536_d1 : S65536x256.ReducesTo [1] S65536
  h_S_ : 0 < S_.numel
  bcast_S_S65536 : S_.BroadcastsInDim S65536 (![] : Fin 0 → Fin S65536.rank)
  dot_S65536x8_S8x10_S65536x10_1_0_0_1_n_n_wf : DotDims.WF S65536x8 S8x10 S65536x10 [1] [0] [0] [1] [] []
  dot_S65536x10_S10x10_S65536x10_1_0_0_1_n_n_wf : DotDims.WF S65536x10 S10x10 S65536x10 [1] [0] [0] [1] [] []
  dot_S65536x10_S10x8_S65536x8_1_0_0_1_n_n_wf : DotDims.WF S65536x10 S10x8 S65536x8 [1] [0] [0] [1] [] []
  dot_S65536x8_S8x256_S65536x256_1_0_0_1_n_n_wf : DotDims.WF S65536x8 S8x256 S65536x256 [1] [0] [0] [1] [] []
  dot_S65536x7_S7x256_S65536x256_1_0_0_1_n_n_wf : DotDims.WF S65536x7 S7x256 S65536x256 [1] [0] [0] [1] [] []

variable [Facts₀]

def dot_S65536x8_S8x10_S65536x10_1_0_0_1_n_n : DotDims S65536x8 S8x10 S65536x10 where
  lhsContracting := [1]
  rhsContracting := [0]
  lhsNonContracting := [0]
  rhsNonContracting := [1]
  lhsBatch := []
  rhsBatch := []
  wf := dot_S65536x8_S8x10_S65536x10_1_0_0_1_n_n_wf
def dot_S65536x10_S10x10_S65536x10_1_0_0_1_n_n : DotDims S65536x10 S10x10 S65536x10 where
  lhsContracting := [1]
  rhsContracting := [0]
  lhsNonContracting := [0]
  rhsNonContracting := [1]
  lhsBatch := []
  rhsBatch := []
  wf := dot_S65536x10_S10x10_S65536x10_1_0_0_1_n_n_wf
def dot_S65536x10_S10x8_S65536x8_1_0_0_1_n_n : DotDims S65536x10 S10x8 S65536x8 where
  lhsContracting := [1]
  rhsContracting := [0]
  lhsNonContracting := [0]
  rhsNonContracting := [1]
  lhsBatch := []
  rhsBatch := []
  wf := dot_S65536x10_S10x8_S65536x8_1_0_0_1_n_n_wf
def dot_S65536x8_S8x256_S65536x256_1_0_0_1_n_n : DotDims S65536x8 S8x256 S65536x256 where
  lhsContracting := [1]
  rhsContracting := [0]
  lhsNonContracting := [0]
  rhsNonContracting := [1]
  lhsBatch := []
  rhsBatch := []
  wf := dot_S65536x8_S8x256_S65536x256_1_0_0_1_n_n_wf
def dot_S65536x7_S7x256_S65536x256_1_0_0_1_n_n : DotDims S65536x7 S7x256 S65536x256 where
  lhsContracting := [1]
  rhsContracting := [0]
  lhsNonContracting := [0]
  rhsNonContracting := [1]
  lhsBatch := []
  rhsBatch := []
  wf := dot_S65536x7_S7x256_S65536x256_1_0_0_1_n_n_wf

class Facts : Prop extends Facts₀ where

variable [Facts]
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibSageMath.lean ====
/- The pure mathematics of a two-layer bidirectional mean-aggregating graph encoder with batch
   normalisation, a rectifier and a final maximum over rows, over the extended reals: which values stay
   real, why dividing by `max c 1` is multiplying by its reciprocal, why the dense layer may be regrouped,
   and why a maximum over all rows is the running maximum of the maxima of consecutive blocks of rows. -/
import Idealize.ShloMosaic.PureOps.Ideal

noncomputable section

namespace SageMath

open Idealize.ShloMosaic

open scoped BigOperators

/-! ### A. Realness -/

/-- An extended real is REAL when it is the image of a real number (neither infinity). -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real: the division is the product with the real `1 / c`. -/
theorem IsReal.div_coe {x : EReal} (hx : IsReal x) {c : ℝ} (hc : c ≠ 0) :
    IsReal (Ideal.div x (c : EReal)) := by
  rw [Ideal.div_coe hc]
  exact hx.mul (IsReal.coe _)

/-- A real is not `-∞`. -/
theorem IsReal.ne_bot {x : EReal} (hx : IsReal x) : x ≠ ⊥ := by
  obtain ⟨a, rfl⟩ := hx
  exact EReal.coe_ne_bot a

/-- A real is not `+∞`. -/
theorem IsReal.ne_top {x : EReal} (hx : IsReal x) : x ≠ ⊤ := by
  obtain ⟨a, rfl⟩ := hx
  exact EReal.coe_ne_top a

/-! ### B. The reciprocal -/

/-- `max c 1` is at least one, so it is not zero. -/
theorem max_one_ne_zero (c : EReal) : max c 1 ≠ 0 :=
  (lt_of_lt_of_le zero_lt_one (le_max_right c 1)).ne'

/-- Off zero, dividing is multiplying by the reciprocal `1 / c`: both are the product with `c⁻¹`. -/
theorem div_eq_mul_recip (s c : EReal) (hc : c ≠ 0) : Ideal.div s c = s * Ideal.div 1 c := by
  rw [Ideal.div, Ideal.div, if_neg hc, if_neg hc, one_mul]

/-- Dividing by `max c 1` is multiplying by its reciprocal, whatever `s` and `c` are. -/
theorem div_max_one (s c : EReal) : Ideal.div s (max c 1) = s * Ideal.div 1 (max c 1) :=
  div_eq_mul_recip s (max c 1) (max_one_ne_zero c)

/-- The reciprocal of `max c 1` is real when `c` is: `max c 1` is a real that is at least one. -/
theorem isReal_recip_max_one {c : EReal} (hc : IsReal c) : IsReal (Ideal.div 1 (max c 1)) := by
  obtain ⟨r, rfl⟩ := hc
  have h1 : Max.max (r : EReal) 1 = ((Max.max r 1 : ℝ) : EReal) := by
    rw [← EReal.coe_one]; exact (EReal.coe_strictMono.monotone.map_max).symm
  have hne : (Max.max r 1 : ℝ) ≠ 0 := (lt_of_lt_of_le zero_lt_one (le_max_right r 1)).ne'
  rw [h1]
  exact isReal_one.div_coe hne

/-! ### C. The dense layer regrouped -/

/-- For real `x`, `u`, `v` the product distributes over the sum (it need not at the infinities). -/
theorem mul_add_of_isReal {x u v : EReal} (hx : IsReal x) (hu : IsReal u) (hv : IsReal v) :
    x * (u + v) = x * u + x * v := by
  obtain ⟨a, rfl⟩ := hx
  obtain ⟨b, rfl⟩ := hu
  obtain ⟨c, rfl⟩ := hv
  rw [← EReal.coe_add, ← EReal.coe_mul, ← EReal.coe_mul, ← EReal.coe_mul, ← EReal.coe_add, mul_add]

/-- A contraction of a real row against the sum of two real columns is the sum of the two
    contractions. -/
theorem sum_mul_add {κ : Type} [Fintype κ] (x wf wb : κ → EReal) (hx : ∀ k, IsReal (x k))
    (hwf : ∀ k, IsReal (wf k)) (hwb : ∀ k, IsReal (wb k)) :
    ∑ k, x k * (wf k + wb k) = ∑ k, x k * wf k + ∑ k, x k * wb k := by
  rw [← Finset.sum_add_distrib]
  exact Finset.sum_congr rfl fun k _ => mul_add_of_isReal (hx k) (hwf k) (hwb k)

/-- The dense layer regrouped: the two aggregate terms `a`, `b` and the two biases `bf`, `bb` are
    arbitrary extended reals, only moved around by commutativity and associativity of the sum; the one
    contraction against the summed columns splits into the two contractions because its entries are real. -/
theorem layer_regroup {κ : Type} [Fintype κ] (a b bf bb : EReal) (x wf wb : κ → EReal)
    (hx : ∀ k, IsReal (x k)) (hwf : ∀ k, IsReal (wf k)) (hwb : ∀ k, IsReal (wb k)) :
    ((a + b) + ∑ k, x k * (wf k + wb k)) + (bf + bb)
      = ((a + bf) + ∑ k, x k * wf k) + ((b + bb) + ∑ k, x k * wb k) := by
  rw [sum_mul_add x wf wb hx hwf hwb]
  abel

/-- One output entry of the dense layer is real when the aggregates, the biases, the row and the
    column are. -/
theorem layer_isReal {κ : Type} [Fintype κ] {a b bf bb : EReal} (ha : IsReal a) (hb : IsReal b)
    (hbf : IsReal bf) (hbb : IsReal bb) (x w : κ → EReal) (hx : ∀ k, IsReal (x k))
    (hw : ∀ k, IsReal (w k)) : IsReal (((a + b) + ∑ k, x k * w k) + (bf + bb)) :=
  ((ha.add hb).add (IsReal.sum _ _ fun k _ => (hx k).mul (hw k))).add (hbf.add hbb)

/-! ### E. The float literals, as the extended reals their patterns denote -/

/-- The pattern of `1.0` denotes `1`. -/
theorem ofBits_one : Ideal.ofBits .f32 0x3F800000#32 = 1 := by
  simp [Ideal.ofBits, Ideal.ieee, -EReal.coe_mul]; norm_num

/-- The pattern of `50000.0` (the row count) denotes the real `50000`. -/
theorem ofBits_50000 : Ideal.ofBits .f32 0x47435000#32 = ((50000 : ℝ) : EReal) := by
  simp [Ideal.ofBits, Ideal.ieee, -EReal.coe_mul]; norm_num

/-- The pattern of the variance offset (about `1e-5`) denotes the real `10995116 · 2⁻⁴⁰`. -/
theorem ofBits_eps : Ideal.ofBits .f32 0x3727C5AC#32 = ((10995116 * (2 : ℝ) ^ (-40 : ℤ) : ℝ) : EReal) := by
  simp [Ideal.ofBits, Ideal.ieee, -EReal.coe_mul]

/-- The variance offset is real. -/
theorem ofBits_eps_isReal : IsReal (Ideal.ofBits .f32 0x3727C5AC#32) := by
  rw [ofBits_eps]; exact IsReal.coe _

/-- The variance offset is positive. -/
theorem ofBits_eps_pos : 0 < Ideal.ofBits .f32 0x3727C5AC#32 := by
  rw [ofBits_eps]
  have h : (0 : ℝ) < 10995116 * (2 : ℝ) ^ (-40 : ℤ) := by positivity
  exact_mod_cast h

/-- The pattern of `-inf` denotes `-∞`. -/
theorem ofBits_neg_inf : Ideal.ofBits .f32 0xFF800000#32 = ⊥ := by
  simp [Ideal.ofBits, Ideal.ieee]

/-! ### D. Batch normalisation followed by the rectifier stays real -/

/-- The reciprocal square root of a positive real is real. -/
theorem isReal_rsqrt {v : EReal} (hv : IsReal v) (hpos : 0 < v) : IsReal (Ideal.rsqrt v) := by
  obtain ⟨r, rfl⟩ := hv
  have hr : 0 < r := by exact_mod_cast hpos
  rw [Ideal.rsqrt_coe, if_neg (not_lt.mpr hr.le), if_neg hr.ne']
  exact IsReal.coe _

/-- The square of a real is nonnegative. -/
theorem mul_self_nonneg_of_isReal {d : EReal} (hd : IsReal d) : 0 ≤ d * d := by
  obtain ⟨a, rfl⟩ := hd
  rw [← EReal.coe_mul]
  exact_mod_cast mul_self_nonneg a

/-- A finite sum of squares of reals is nonnegative. -/
theorem sum_mul_self_nonneg {ι : Type} [Fintype ι] (d : ι → EReal) (hd : ∀ i, IsReal (d i)) :
    0 ≤ ∑ i, d i * d i :=
  Finset.sum_nonneg fun i _ => mul_self_nonneg_of_isReal (hd i)

/-- A nonnegative real divided by a positive real is nonnegative. -/
theorem div_coe_nonneg {x : EReal} (hx : IsReal x) (h0 : 0 ≤ x) {N : ℝ} (hN : 0 < N) :
    0 ≤ Ideal.div x (N : EReal) := by
  obtain ⟨a, rfl⟩ := hx
  have ha : 0 ≤ a := by exact_mod_cast h0
  rw [Ideal.div_coe hN.ne', ← EReal.coe_mul]
  have h : 0 ≤ a * (1 / N) := mul_nonneg ha (by positivity)
  exact_mod_cast h

/-- A nonnegative real plus a positive real is positive. -/
theorem add_pos_of_isReal {v e : EReal} (hv : IsReal v) (h0 : 0 ≤ v) (he : IsReal e) (hepos : 0 < e) :
    0 < v + e := by
  obtain ⟨a, rfl⟩ := hv
  obtain ⟨b, rfl⟩ := he
  have ha : 0 ≤ a := by exact_mod_cast h0
  have hb : 0 < b := by exact_mod_cast hepos
  rw [← EReal.coe_add]
  have h : 0 < a + b := add_pos_of_nonneg_of_pos ha hb
  exact_mod_cast h

/-- Normalising real entries around ANY real centre `μ` stays real: each deviation is real, the sum of
    their squares is a nonnegative real, so the mean square is a nonnegative real, the mean square plus a
    positive real offset is a positive real, its reciprocal square root is real, and scaling, shifting and
    taking the greater with a real keep it real. -/
theorem normalise_isReal {ι : Type} [Fintype ι] (h : ι → EReal) (hh : ∀ i, IsReal (h i)) {μ : EReal}
    (hμ : IsReal μ) {N : ℝ} (hN : 0 < N) {g b e z : EReal} (hg : IsReal g) (hb : IsReal b)
    (he : IsReal e) (hepos : 0 < e) (hz : IsReal z) (n : ι) :
    IsReal (max ((((h n - μ) * Ideal.rsqrt
      (Ideal.div (0 + ∑ i, (h i - μ) * (h i - μ)) (N : EReal) + e)) * g) + b) z) := by
  have hd : ∀ i, IsReal (h i - μ) := fun i => (hh i).sub hμ
  have hS : IsReal (0 + ∑ i, (h i - μ) * (h i - μ)) :=
    isReal_zero.add (IsReal.sum _ _ fun i _ => (hd i).mul (hd i))
  have hS0 : 0 ≤ 0 + ∑ i, (h i - μ) * (h i - μ) := by
    rw [zero_add]
    exact sum_mul_self_nonneg (fun i => h i - μ) hd
  have hv : IsReal (Ideal.div (0 + ∑ i, (h i - μ) * (h i - μ)) (N : EReal)) := hS.div_coe hN.ne'
  have hv0 : 0 ≤ Ideal.div (0 + ∑ i, (h i - μ) * (h i - μ)) (N : EReal) := div_coe_nonneg hS hS0 hN
  have hr := isReal_rsqrt (hv.add he) (add_pos_of_isReal hv hv0 he hepos)
  exact ((((hd n).mul hr).mul hg).add hb).max hz

/-- Batch normalisation followed by the rectifier, on real entries with real scale, shift, offset
    (positive) and floor: the mean `(0 + Σ h) / N` is real, so this is the normalisation around a real
    centre. -/
theorem bn_relu_isReal {ι : Type} [Fintype ι] (h : ι → EReal) (hh : ∀ i, IsReal (h i)) {N : ℝ}
    (hN : 0 < N) {g b e z : EReal} (hg : IsReal g) (hb : IsReal b) (he : IsReal e) (hepos : 0 < e)
    (hz : IsReal z) (n : ι) :
    IsReal (max ((((h n - Ideal.div (0 + ∑ i, h i) (N : EReal)) * Ideal.rsqrt
      (Ideal.div (0 + ∑ i, (h i - Ideal.div (0 + ∑ j, h j) (N : EReal))
        * (h i - Ideal.div (0 + ∑ j, h j) (N : EReal))) (N : EReal) + e)) * g) + b) z) :=
  normalise_isReal h hh ((isReal_zero.add (IsReal.sum _ _ fun i _ => hh i)).div_coe hN.ne') hN hg hb he
    hepos hz n

end SageMath

end
-- ==== Proof.Spec.lean ====
/-
  The mathematics of the kernel, row by row, over the extended reals.

  One input row x (8 numbers) goes through a three-layer perceptron with rectifiers, f = mlp x (8 numbers). From f come
  seven neighbour products g j = (π - f j)(π - f (j+1)), and for each of the 256 basis states k the phase
      angle f k = -( Σ_j f j · S k j  +  Σ_j g j · SS k j ),
  S and SS being fixed tables of signs. The result for a pair of rows x1, x2 is
      ( 0 + Σ_k cos (angle f1 k - angle f2 k) ) / 256.
  The fused form contracts ONE row of 15 numbers, (f1 - f2 , g1 - g2), against ONE 15 × 256 table T whose first eight
  rows are S transposed and whose last seven are SS transposed:
      ( Σ_k cos (0 - Σ_j c j · T j k) ) / 256.
  The two agree because a product distributes over a difference and a sum of differences is the difference of the sums
  WHEN EVERY ENTRY IS A REAL NUMBER; on the extended reals this fails at the infinities, so the statement carries the
  hypothesis that the rows and the tables are real. That the perceptron of a real row with real weights is a real row is
  proved here too.
-/
import proofs.«171358_j7756710937246_2_alg».proof.Proof.LibRealSums
import proofs.«171358_j7756710937246_2_alg».proof.Proof.LibSageMath
import Idealize.ShloMosaic.PureOps.Ideal.Laws
import Mathlib.Algebra.BigOperators.Fin

noncomputable section

namespace Cert.Spec

open Idealize.ShloMosaic SageMath
open scoped BigOperators

/-- The three float literals of the two programs, as the extended reals their patterns denote. -/
abbrev zero : EReal := Ideal.ofBits .f32 0x00000000#32
abbrev pi32 : EReal := Ideal.ofBits .f32 0x40490FDB#32
abbrev c256 : EReal := Ideal.ofBits .f32 0x43800000#32

theorem zero_eq : zero = 0 := Ideal.ofBits_zero_f32
theorem zero_isReal : IsReal zero := by rw [zero_eq]; exact isReal_zero

/-- A dense layer on one row: x · Wᵀ + b, the weight stored output-major (W c k multiplies x k into output c). -/
def dense {K C : ℕ} (x : Fin K → EReal) (W : Fin C → Fin K → EReal) (b : Fin C → EReal) : Fin C → EReal :=
  fun c => (∑ k : Fin K, x k * W c k) + b c

/-- The rectifier on one row. -/
def relu {C : ℕ} (v : Fin C → EReal) : Fin C → EReal := fun c => max (v c) zero

/-- The perceptron's weights and biases. -/
structure Net where
  W1 : Fin 10 → Fin 8 → EReal
  b1 : Fin 10 → EReal
  W2 : Fin 10 → Fin 10 → EReal
  b2 : Fin 10 → EReal
  W3 : Fin 8 → Fin 10 → EReal
  b3 : Fin 8 → EReal

/-- Every weight and bias is a real number. -/
structure Net.Real (n : Net) : Prop where
  W1 : ∀ c k, IsReal (n.W1 c k)
  b1 : ∀ c, IsReal (n.b1 c)
  W2 : ∀ c k, IsReal (n.W2 c k)
  b2 : ∀ c, IsReal (n.b2 c)
  W3 : ∀ c k, IsReal (n.W3 c k)
  b3 : ∀ c, IsReal (n.b3 c)

/-- The first two layers (each followed by the rectifier) and the whole perceptron, on one row. -/
def hidden1 (n : Net) (x : Fin 8 → EReal) : Fin 10 → EReal := relu (dense x n.W1 n.b1)
def hidden2 (n : Net) (x : Fin 8 → EReal) : Fin 10 → EReal := relu (dense (hidden1 n x) n.W2 n.b2)
def mlp (n : Net) (x : Fin 8 → EReal) : Fin 8 → EReal := dense (hidden2 n x) n.W3 n.b3

/-- The seven neighbour products of π - f. -/
def pairs (f : Fin 8 → EReal) : Fin 7 → EReal := fun j => (pi32 - f j.castSucc) * (pi32 - f j.succ)

/-- The phase of basis state k. -/
def angle (S : Fin 256 → Fin 8 → EReal) (SS : Fin 256 → Fin 7 → EReal) (f : Fin 8 → EReal) (k : Fin 256) : EReal :=
  -((∑ j : Fin 8, f j * S k j) + ∑ j : Fin 7, pairs f j * SS k j)

/-- The result for a pair of feature rows: the mean over the basis states of the cosine of the phase difference. -/
def trace (S : Fin 256 → Fin 8 → EReal) (SS : Fin 256 → Fin 7 → EReal) (f1 f2 : Fin 8 → EReal) : EReal :=
  Ideal.div (zero + ∑ k : Fin 256, Ideal.cos (angle S SS f1 k - angle S SS f2 k)) c256

/-- The fused row of 15 numbers: the eight feature differences, then the seven differences of neighbour products. -/
def fused (f1 f2 : Fin 8 → EReal) : Fin 15 → EReal := fun j =>
  if h : j.val < 8 then f1 ⟨j.val, h⟩ - f2 ⟨j.val, h⟩
  else pairs f1 ⟨j.val - 8, by have := j.isLt; omega⟩ - pairs f2 ⟨j.val - 8, by have := j.isLt; omega⟩

/-- The fused form of the result: one contraction of the fused row against one table. -/
def traceFused (T : Fin 15 → Fin 256 → EReal) (f1 f2 : Fin 8 → EReal) : EReal :=
  Ideal.div (∑ k : Fin 256, Ideal.cos (zero - ∑ j : Fin 15, fused f1 f2 j * T j k)) c256

/-! ## What stays real -/

theorem dense_isReal {K C : ℕ} {x : Fin K → EReal} {W : Fin C → Fin K → EReal} {b : Fin C → EReal}
    (hx : ∀ k, IsReal (x k)) (hW : ∀ c k, IsReal (W c k)) (hb : ∀ c, IsReal (b c)) (c : Fin C) : IsReal (dense x W b c) :=
  (IsReal.sum _ _ fun k _ => (hx k).mul (hW c k)).add (hb c)

theorem relu_isReal {C : ℕ} {v : Fin C → EReal} (hv : ∀ c, IsReal (v c)) (c : Fin C) : IsReal (relu v c) :=
  (hv c).max zero_isReal

theorem mlp_isReal {n : Net} (hn : n.Real) {x : Fin 8 → EReal} (hx : ∀ k, IsReal (x k)) (c : Fin 8) : IsReal (mlp n x c) :=
  dense_isReal (fun k => relu_isReal (fun k => dense_isReal (fun k => relu_isReal (fun k => dense_isReal hx hn.W1 hn.b1 k) k)
    hn.W2 hn.b2 k) k) hn.W3 hn.b3 c

theorem pairs_isReal (hpi : IsReal pi32) {f : Fin 8 → EReal} (hf : ∀ j, IsReal (f j)) (j : Fin 7) : IsReal (pairs f j) :=
  (hpi.sub (hf _)).mul (hpi.sub (hf _))

/-! ## The regrouping law -/

/-- Over the reals: contracting the differences is the difference of the contractions, negated as the phases are. -/
theorem real_law (F1 F2 s : Fin 8 → ℝ) (G1 G2 ss : Fin 7 → ℝ) :
    0 - ((∑ j, (F1 j - F2 j) * s j) + ∑ j, (G1 j - G2 j) * ss j)
      = -((∑ j, F1 j * s j) + ∑ j, G1 j * ss j) - -((∑ j, F2 j * s j) + ∑ j, G2 j * ss j) := by
  simp only [sub_mul, Finset.sum_sub_distrib]
  ring

/-- The same on the extended reals, for rows and table columns that are real entry by entry. -/
theorem ereal_law (f1 f2 s : Fin 8 → EReal) (g1 g2 ss : Fin 7 → EReal)
    (hf1 : ∀ j, IsReal (f1 j)) (hf2 : ∀ j, IsReal (f2 j)) (hs : ∀ j, IsReal (s j))
    (hg1 : ∀ j, IsReal (g1 j)) (hg2 : ∀ j, IsReal (g2 j)) (hss : ∀ j, IsReal (ss j)) :
    zero - ((∑ j, (f1 j - f2 j) * s j) + ∑ j, (g1 j - g2 j) * ss j)
      = -((∑ j, f1 j * s j) + ∑ j, g1 j * ss j) - -((∑ j, f2 j * s j) + ∑ j, g2 j * ss j) := by
  choose F1 hF1 using hf1
  choose F2 hF2 using hf2
  choose s' hs' using hs
  choose G1 hG1 using hg1
  choose G2 hG2 using hg2
  choose ss' hss' using hss
  have hz : zero = ((0 : ℝ) : EReal) := by rw [zero_eq, EReal.coe_zero]
  simp only [hF1, hF2, hs', hG1, hG2, hss', hz, ← EReal.coe_sub, Cert.Lib.RealSums.sum_coe_mul_coe, ← EReal.coe_add,
    ← EReal.coe_neg]
  exact congrArg _ (real_law F1 F2 s' G1 G2 ss')

/-- The contraction of the fused row against a 15-entry column splits into its first eight and last seven terms. -/
theorem fused_sum (f1 f2 : Fin 8 → EReal) (t : Fin 15 → EReal) :
    ∑ j : Fin 15, fused f1 f2 j * t j
      = (∑ j : Fin 8, (f1 j - f2 j) * t ⟨j.val, by have := j.isLt; omega⟩)
        + ∑ j : Fin 7, (pairs f1 j - pairs f2 j) * t ⟨8 + j.val, by have := j.isLt; omega⟩ := by
  rw [show (∑ j : Fin 15, fused f1 f2 j * t j) = ∑ j : Fin (8 + 7), fused f1 f2 j * t j from rfl, Fin.sum_univ_add]
  congr 1

/-- THE LAW: the fused form is the result, when the table's first eight rows are the sign table transposed, its last seven
    the pair table transposed, and the feature rows, the tables and π are real. -/
theorem traceFused_eq (S : Fin 256 → Fin 8 → EReal) (SS : Fin 256 → Fin 7 → EReal) (T : Fin 15 → Fin 256 → EReal)
    (hlo : ∀ (j : Fin 8) (k : Fin 256), T ⟨j.val, by have := j.isLt; omega⟩ k = S k j)
    (hhi : ∀ (j : Fin 7) (k : Fin 256), T ⟨8 + j.val, by have := j.isLt; omega⟩ k = SS k j)
    (hS : ∀ k j, IsReal (S k j)) (hSS : ∀ k j, IsReal (SS k j)) (hpi : IsReal pi32)
    (f1 f2 : Fin 8 → EReal) (hf1 : ∀ j, IsReal (f1 j)) (hf2 : ∀ j, IsReal (f2 j)) :
    traceFused T f1 f2 = trace S SS f1 f2 := by
  unfold traceFused trace
  rw [zero_eq, zero_add]
  refine congrArg (fun v => Ideal.div v c256) (Finset.sum_congr rfl fun k _ => congrArg Ideal.cos ?_)
  rw [← zero_eq, fused_sum]
  simp only [hlo, hhi]
  exact ereal_law f1 f2 (S k) (pairs f1) (pairs f2) (SS k) hf1 hf2 (hS k) (pairs_isReal hpi hf1) (pairs_isReal hpi hf2) (hSS k)

end Cert.Spec

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.Layers.lean ====
/-
  The building blocks of both programs read at an index, for any number of rows.

  A dense layer is a matrix product plus a bias row spread over the rows; the kernel writes it with a matrix product into a
  zero accumulator and a one-row broadcast, the reference with a contraction against the transposed weight and two
  broadcasts. Read at (row p, column c) both are  Σ_k x(p,k) · W(c,k) + b(c).  Likewise the two column windows of
  π - f (columns 0..6 and 1..7), and the row of 15 numbers made by setting eight columns beside seven.
-/
import proofs.«171358_j7756710937246_2_alg».proof.Proof.Spec
import proofs.«171358_j7756710937246_2_alg».proof.Proof.LibPlainDot
import proofs.«171358_j7756710937246_2_alg».proof.Proof.LibRowLayout
import Idealize.ShloMosaic.Lib.ValueLayout
import Idealize.ShloMosaic.Lib.IdealHost
import Idealize.ShloMosaic.Lib.Pipeline.Value

noncomputable section

namespace Cert.Layers

open Idealize.ShloMosaic Idealize.ShloMosaic.ValueIdx Cert.Spec Cert.Lib.PlainDot
open scoped BigOperators

variable {α : Type} {R : ℕ}

/-- Row r of a matrix, as a function of the column. -/
def rowOf {R K : ℕ} (x : (⟨2, ![R, K]⟩ : Shape).Idx → EReal) (r : Fin R) : Fin K → EReal := fun k => x (ix2 r k)

/-- The product of two matrices at (r, c): the sum over k of x (r, k) · w (k, c). -/
theorem mm_ix2 {K C : ℕ} (x : (⟨2, ![R, K]⟩ : Shape).Idx → EReal) (w : (⟨2, ![K, C]⟩ : Shape).Idx → EReal) (r : Fin R) (c : Fin C) :
    mm x w (ix2 r c) = ∑ k : Fin K, x (ix2 r k) * w (ix2 k c) := by
  unfold mm
  refine Finset.sum_congr rfl fun k _ => ?_
  have e1 : rowIdx (ix2 r c) k = ix2 r k := funext fun a => by
    match a with
    | ⟨0, _⟩ => rfl
    | ⟨1, _⟩ => rfl
  have e2 : colIdx (ix2 r c) k = ix2 k c := funext fun a => by
    match a with
    | ⟨0, _⟩ => rfl
    | ⟨1, _⟩ => rfl
  rw [e1, e2]

/-! ## Broadcasts of a bias -/

/-- A one-row matrix spread over R rows reads, at (p, c), its one row at c. -/
theorem bcastRows_apply {C : ℕ} (v : (⟨2, ![1, C]⟩ : Shape).Idx → α)
    (h : (⟨2, ![1, C]⟩ : Shape).BroadcastsInDim ⟨2, ![R, C]⟩ (![0, 1] : Fin 2 → Fin (⟨2, ![R, C]⟩ : Shape).rank)) (p : Fin R) (c : Fin C) :
    broadcastInDim ⟨2, ![R, C]⟩ ![0, 1] h v (ix2 p c) = v (ix2 (0 : Fin 1) c) := by
  refine broadcastInDim_apply _ h v (ix2 p c) (ix2 (0 : Fin 1) c) fun a => ?_
  match a with
  | ⟨0, _⟩ => rfl
  | ⟨1, _⟩ =>
    show c.val = if C = 1 then 0 else c.val
    split
    · have := c.isLt; omega
    · rfl

/-- A vector made a one-row matrix reads, at (u, c), the vector at c. -/
theorem bcastVec_apply {C : ℕ} (b : (⟨1, ![C]⟩ : Shape).Idx → α)
    (h : (⟨1, ![C]⟩ : Shape).BroadcastsInDim ⟨2, ![1, C]⟩ (![1] : Fin 1 → Fin (⟨2, ![1, C]⟩ : Shape).rank)) (u : Fin 1) (c : Fin C) :
    broadcastInDim ⟨2, ![1, C]⟩ ![1] h b (ix2 u c) = b (ix1 c) := by
  refine broadcastInDim_apply _ h b (ix2 u c) (ix1 c) fun a => ?_
  match a with
  | ⟨0, _⟩ =>
    show c.val = if C = 1 then 0 else c.val
    split
    · have := c.isLt; omega
    · rfl

/-! ## A dense layer, the kernel's way and the reference's way -/

/-- The kernel's dense layer at (p, c). -/
theorem kDense {K C : ℕ} (d : DotDims ⟨2, ![R, K]⟩ ⟨2, ![K, C]⟩ ⟨2, ![R, C]⟩) (hd : d = DotDims.plain R K C)
    (x : FVec Ideal ⟨2, ![R, K]⟩ .f32) (w : FVec Ideal ⟨2, ![K, C]⟩ .f32) (b : FVec Ideal ⟨1, ![C]⟩ .f32)
    (h1 : (⟨1, ![C]⟩ : Shape).ShapeCasts ⟨2, ![1, C]⟩) (h2 : (⟨2, ![1, C]⟩ : Shape).Broadcasts ⟨2, ![R, C]⟩) (p : Fin R) (c : Fin C) :
    addf (matmul d none x w (constant ⟨2, ![R, C]⟩ .f32 0x00000000#32)) (broadcastTo ⟨2, ![R, C]⟩ (shapeCast ⟨2, ![1, C]⟩ b h1) h2) (ix2 p c)
      = dense (rowOf x p) (fun c k => w (ix2 k c)) (fun c => b (ix1 c)) c := by
  have hm : matmul d none x w (constant ⟨2, ![R, C]⟩ .f32 0x00000000#32) (ix2 p c) = mm x w (ix2 p c) :=
    matmul_zero_apply d hd none x w (ix2 p c)
  rw [addf_apply, hm, mm_ix2, broadcastTo_1b_ab_apply, shapeCast_a_1a_apply]
  rfl

/-- The reference's dense layer at (p, c). -/
theorem hDense {K C : ℕ} (d : DotDims ⟨2, ![R, K]⟩ ⟨2, ![K, C]⟩ ⟨2, ![R, C]⟩) (hd : d = DotDims.plain R K C)
    (x : FVec Ideal ⟨2, ![R, K]⟩ .f32) (W : FVec Ideal ⟨2, ![C, K]⟩ .f32) (b : FVec Ideal ⟨1, ![C]⟩ .f32)
    (ht : (⟨2, ![C, K]⟩ : Shape).Transposes [1, 0] ⟨2, ![K, C]⟩)
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![R, C]⟩ (![0, 1] : Fin 2 → Fin (⟨2, ![R, C]⟩ : Shape).rank)) (p : Fin R) (c : Fin C) :
    addf (Host.dotGeneral d none x (transpose ⟨2, ![K, C]⟩ [1, 0] W ht)) (broadcastInDim ⟨2, ![R, C]⟩ ![0, 1] h2 (broadcastInDim ⟨2, ![1, C]⟩ ![1] h1 b)) (ix2 p c)
      = dense (rowOf x p) (fun c k => W (ix2 c k)) (fun c => b (ix1 c)) c := by
  have hm : Host.dotGeneral d none x (transpose ⟨2, ![K, C]⟩ [1, 0] W ht) (ix2 p c) = mm x (transpose ⟨2, ![K, C]⟩ [1, 0] W ht) (ix2 p c) :=
    dotGeneral_apply d hd none .single x _ (ix2 p c)
  rw [addf_apply, bcastRows_apply, bcastVec_apply, hm, mm_ix2]
  exact congrArg (· + b (ix1 c)) (Finset.sum_congr rfl fun k _ => congrArg (x (ix2 p k) * ·) (transpose_ix2_apply W ht k c))

/-- The kernel's rectifier at an index: the larger of the entry and the zero literal. -/
theorem kRelu {s : Shape} (A : FVec Ideal s .f32) (i : s.Idx) :
    maximumf A (broadcast s (Scalar.ofBits (F := Ideal) .f32 0x00000000#32)) i = max (A i) zero := rfl

/-- The reference's rectifier at an index. -/
theorem hRelu {s : Shape} (A : FVec Ideal s .f32) (h : (⟨0, ![]⟩ : Shape).BroadcastsInDim s ![]) (i : s.Idx) :
    maximumf A (broadcastInDim s ![] h (constant (F := Ideal) ⟨0, ![]⟩ .f32 0x00000000#32)) i = max (A i) zero := by
  rw [maximumf_apply, broadcastInDim_scalar_apply]
  rfl

/-! ## The two column windows and the fused row -/

/-- Columns 0..6 of an eight-column matrix. -/
theorem sliceLo_apply (X : (⟨2, ![R, 8]⟩ : Shape).Idx → α) (h : (⟨2, ![R, 8]⟩ : Shape).Slices ![0, 0] ⟨2, ![R, 7]⟩) (p : Fin R) (j : Fin 7) :
    extractStridedSlice ⟨2, ![R, 7]⟩ ![0, 0] X h (ix2 p j) = X (ix2 p j.castSucc) :=
  slice2_axis1_apply 0 X h p j j.castSucc (by simp)

/-- Columns 1..7 of an eight-column matrix. -/
theorem sliceHi_apply (X : (⟨2, ![R, 8]⟩ : Shape).Idx → α) (h : (⟨2, ![R, 8]⟩ : Shape).Slices ![0, 1] ⟨2, ![R, 7]⟩) (p : Fin R) (j : Fin 7) :
    extractStridedSlice ⟨2, ![R, 7]⟩ ![0, 1] X h (ix2 p j) = X (ix2 p j.succ) :=
  slice2_axis1_apply 1 X h p j j.succ (by simp [Fin.val_succ]; omega)

/-- Eight columns set beside seven: at column j the first matrix for j < 8, the second at j - 8 otherwise. -/
theorem concat_apply (A : (⟨2, ![R, 8]⟩ : Shape).Idx → α) (B : (⟨2, ![R, 7]⟩ : Shape).Idx → α)
    (h : Shape.Concatenates [(⟨2, ![R, 8]⟩ : Shape), ⟨2, ![R, 7]⟩] ⟨2, ![R, 15]⟩ (1 : Fin 2)) (p : Fin R) (j : Fin 15) :
    concatenate ⟨2, ![R, 15]⟩ (1 : Fin 2) [⟨⟨2, ![R, 8]⟩, A⟩, ⟨⟨2, ![R, 7]⟩, B⟩] h (ix2 p j)
      = if hj : j.val < 8 then A (ix2 p ⟨j.val, hj⟩) else B (ix2 p ⟨j.val - 8, by have := j.isLt; omega⟩) := by
  by_cases hj : j.val < 8
  · rw [dif_pos hj]
    refine concatenate_pair_apply_left (1 : Fin 2) A B h (ix2 p j) rfl (ix2 p ⟨j.val, hj⟩) fun b => ?_
    match b with
    | ⟨0, _⟩ => rfl
    | ⟨1, _⟩ => rfl
  · rw [dif_neg hj]
    refine concatenate_pair_apply_right (1 : Fin 2) A B h (ix2 p j) rfl rfl (ix2 p ⟨j.val - 8, by have := j.isLt; omega⟩) (fun b hb => ?_) ?_
    · match b with
      | ⟨0, _⟩ => rfl
      | ⟨1, _⟩ => exact absurd rfl hb
    · show j.val - 8 + 8 = j.val
      omega

/-! ## The host's sum over the second axis -/

/-- The host's sum over the columns of a matrix, from an initial value, read at row r. -/
theorem hostSum_row {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init (Shape.Idx.first hu) + ∑ k : Fin b, X (ix2 r k) :=
  (Ideal.hostReduceAdd_single h' h X (init (Shape.Idx.first hu)) (ix1 r)).trans
    (congrArg (init (Shape.Idx.first hu) + ·) (Finset.sum_congr rfl fun k _ => congrArg X (funext fun ax => Fin.ext (by
      match ax with
      | ⟨0, _⟩ => rfl
      | ⟨1, _⟩ => rfl))))

/-! ## The whole-array statement -/

/-- A weight matrix and the biases as the perceptron's rows and columns. -/
def netOf (W1 : (⟨2, ![10, 8]⟩ : Shape).Idx → EReal) (b1 : (⟨1, ![10]⟩ : Shape).Idx → EReal)
    (W2 : (⟨2, ![10, 10]⟩ : Shape).Idx → EReal) (b2 : (⟨1, ![10]⟩ : Shape).Idx → EReal)
    (W3 : (⟨2, ![8, 10]⟩ : Shape).Idx → EReal) (b3 : (⟨1, ![8]⟩ : Shape).Idx → EReal) : Net :=
  ⟨fun c k => W1 (ix2 c k), fun c => b1 (ix1 c), fun c k => W2 (ix2 c k), fun c => b2 (ix1 c), fun c k => W3 (ix2 c k), fun c => b3 (ix1 c)⟩

/-- A matrix as a function of its two coordinates. -/
def tableOf {A B : ℕ} (t : (⟨2, ![A, B]⟩ : Shape).Idx → EReal) : Fin A → Fin B → EReal := fun a b => t (ix2 a b)

/-- THE RESULT ARRAY as one function of the argument arrays: entry r is the mean cosine of the phase differences of the
    features of row r of x1 and row r of x2. -/
def G (S : Fin 256 → Fin 8 → EReal) (SS : Fin 256 → Fin 7 → EReal)
    (x1 x2 : (⟨2, ![65536, 8]⟩ : Shape).Idx → EReal) (W1 : (⟨2, ![10, 8]⟩ : Shape).Idx → EReal) (b1 : (⟨1, ![10]⟩ : Shape).Idx → EReal)
    (W2 : (⟨2, ![10, 10]⟩ : Shape).Idx → EReal) (b2 : (⟨1, ![10]⟩ : Shape).Idx → EReal)
    (W3 : (⟨2, ![8, 10]⟩ : Shape).Idx → EReal) (b3 : (⟨1, ![8]⟩ : Shape).Idx → EReal) : (⟨1, ![65536]⟩ : Shape).Idx → EReal :=
  fun i => trace S SS (mlp (netOf W1 b1 W2 b2 W3 b3) (rowOf x1 ⟨(i 0).val, (i 0).isLt⟩))
    (mlp (netOf W1 b1 W2 b2 W3 b3) (rowOf x2 ⟨(i 0).val, (i 0).isLt⟩))

theorem G_ix1 (S : Fin 256 → Fin 8 → EReal) (SS : Fin 256 → Fin 7 → EReal)
    (x1 x2 : (⟨2, ![65536, 8]⟩ : Shape).Idx → EReal) (W1 : (⟨2, ![10, 8]⟩ : Shape).Idx → EReal) (b1 : (⟨1, ![10]⟩ : Shape).Idx → EReal)
    (W2 : (⟨2, ![10, 10]⟩ : Shape).Idx → EReal) (b2 : (⟨1, ![10]⟩ : Shape).Idx → EReal)
    (W3 : (⟨2, ![8, 10]⟩ : Shape).Idx → EReal) (b3 : (⟨1, ![8]⟩ : Shape).Idx → EReal) (r : Fin 65536) :
    G S SS x1 x2 W1 b1 W2 b2 W3 b3 (ix1 r)
      = trace S SS (mlp (netOf W1 b1 W2 b2 W3 b3) (rowOf x1 r)) (mlp (netOf W1 b1 W2 b2 W3 b3) (rowOf x2 r)) := rfl

end Cert.Layers

end
-- ==== Proof.KernelPayload.lean ====
/-
  What the kernel stores for one row of its block.

  The body loads the block's rows of x1 and x2, the three transposed weights, the three biases and the 15 × 256 table; it
  runs the perceptron on both blocks of rows, forms the row of 15 numbers (the eight feature differences, then the seven
  differences of neighbour products of π - f), contracts it with the table, negates, takes cosines, sums the 256 of them
  and divides by 256. Read at row p of the block this is the fused form of the result for rows p of the two input blocks.
-/
import proofs.«171358_j7756710937246_2_alg».proof.Proof.Gen.KernelIdeal.Frame
import proofs.«171358_j7756710937246_2_alg».proof.Proof.Layers

noncomputable section

namespace Cert.KernelIdeal.Pay

open Cert.KernelIdeal Cert.KernelIdeal.Gen Idealize.ShloMosaic Idealize.ShloMosaic.ValueIdx
open Cert.Spec Cert.Layers Cert.Lib.PlainDot
open scoped BigOperators

/-- The perceptron's weights as the kernel holds them: each weight matrix transposed (input-major). -/
def netK (w1 : FVec Ideal S8x10 .f32) (b1 : FVec Ideal S10 .f32) (w2 : FVec Ideal S10x10 .f32) (b2 : FVec Ideal S10 .f32)
    (w3 : FVec Ideal S10x8 .f32) (b3 : FVec Ideal S8 .f32) : Net :=
  ⟨fun c k => w1 (ix2 k c), fun c => b1 (ix1 c), fun c k => w2 (ix2 k c), fun c => b2 (ix1 c), fun c k => w3 (ix2 k c), fun c => b3 (ix1 c)⟩

/-- The value stored for one pair of input rows: the fused form of the result. -/
def rowVal (X1 X2 : Fin 8 → EReal) (w1 : FVec Ideal S8x10 .f32) (b1 : FVec Ideal S10 .f32) (w2 : FVec Ideal S10x10 .f32)
    (b2 : FVec Ideal S10 .f32) (w3 : FVec Ideal S10x8 .f32) (b3 : FVec Ideal S8 .f32) (tbl : FVec Ideal S15x256 .f32) : EReal :=
  traceFused (tableOf tbl) (mlp (netK w1 b1 w2 b2 w3 b3) X1) (mlp (netK w1 b1 w2 b2 w3 b3) X2)

/-- The zero offsets of the whole-block loads and of the one store, however many axes. -/
theorem hz1 : (![0] : Fin 1 → Nat) = fun _ => 0 := funext fun a => by fin_cases a; rfl
theorem hz2 : (![0, 0] : Fin 2 → Nat) = fun _ => 0 := funext fun a => by fin_cases a <;> rfl

/-! ## The body's arithmetic, piece by piece -/

/-- First layer on a block of rows, rectified. -/
def kLayer1 (x : FVec Ideal S8192x8 .f32) (w1 : FVec Ideal S8x10 .f32) (b1 : FVec Ideal S10 .f32) : FVec Ideal S8192x10 .f32 :=
  maximumf (addf (matmul dot_S8192x8_S8x10_S8192x10_1_0_0_1_n_n none x w1 (constant S8192x10 .f32 0x00000000#32))
    (broadcastTo S8192x10 (shapeCast S1x10 b1 shapeCasts_S10_S1x10) broadcasts_S1x10_S8192x10)) (broadcast S8192x10 (Scalar.ofBits .f32 0x00000000#32))

/-- Second layer, rectified. -/
def kLayer2 (h : FVec Ideal S8192x10 .f32) (w2 : FVec Ideal S10x10 .f32) (b2 : FVec Ideal S10 .f32) : FVec Ideal S8192x10 .f32 :=
  maximumf (addf (matmul dot_S8192x10_S10x10_S8192x10_1_0_0_1_n_n none h w2 (constant S8192x10 .f32 0x00000000#32))
    (broadcastTo S8192x10 (shapeCast S1x10 b2 shapeCasts_S10_S1x10) broadcasts_S1x10_S8192x10)) (broadcast S8192x10 (Scalar.ofBits .f32 0x00000000#32))

/-- Third layer. -/
def kLayer3 (h : FVec Ideal S8192x10 .f32) (w3 : FVec Ideal S10x8 .f32) (b3 : FVec Ideal S8 .f32) : FVec Ideal S8192x8 .f32 :=
  addf (matmul dot_S8192x10_S10x8_S8192x8_1_0_0_1_n_n none h w3 (constant S8192x8 .f32 0x00000000#32))
    (broadcastTo S8192x8 (shapeCast S1x8 b3 shapeCasts_S8_S1x8) broadcasts_S1x8_S8192x8)

/-- The perceptron on a block of rows, from the loaded (transposed) weights. -/
def kFeat (x : FVec Ideal S8192x8 .f32) (w1 : FVec Ideal S8x10 .f32) (b1 : FVec Ideal S10 .f32) (w2 : FVec Ideal S10x10 .f32) (b2 : FVec Ideal S10 .f32)
    (w3 : FVec Ideal S10x8 .f32) (b3 : FVec Ideal S8 .f32) : FVec Ideal S8192x8 .f32 :=
  kLayer3 (kLayer2 (kLayer1 x (shapeCast S8x10 w1 shapeCasts_S8x10_S8x10) b1) (shapeCast S10x10 w2 shapeCasts_S10x10_S10x10) b2)
    (shapeCast S10x8 w3 shapeCasts_S10x8_S10x8) b3

/-- π - f on a block. -/
def kPiMinus (f : FVec Ideal S8192x8 .f32) : FVec Ideal S8192x8 .f32 := subf (broadcast S8192x8 (Scalar.ofBits .f32 0x40490FDB#32)) f

/-- The seven neighbour products of π - f, on a block. -/
def kPairs (f : FVec Ideal S8192x8 .f32) : FVec Ideal S8192x7 .f32 :=
  mulf (extractStridedSlice S8192x7 ![0, 0] (kPiMinus f) slices_S8192x8_o0_0_S8192x7) (extractStridedSlice S8192x7 ![0, 1] (kPiMinus f) slices_S8192x8_o0_1_S8192x7)

/-- The fused rows: feature differences beside the differences of neighbour products. -/
def kFused (f1 f2 : FVec Ideal S8192x8 .f32) : FVec Ideal S8192x15 .f32 :=
  concatenate S8192x15 1 [⟨S8192x8, subf f1 f2⟩, ⟨S8192x7, subf (kPairs f1) (kPairs f2)⟩] concatenates_S8192x8_S8192x7_S8192x15_d1

/-- From the two feature blocks and the table to the stored vector. -/
def kTail (f1 f2 : FVec Ideal S8192x8 .f32) (tbl : FVec Ideal S15x256 .f32) : FVec Ideal S8192 .f32 :=
  divf (multiReduction .add [1] S8192
      (cos (subf (broadcast S8192x256 (Scalar.ofBits .f32 0x00000000#32))
        (matmul dot_S8192x15_S15x256_S8192x256_1_0_0_1_n_n none (kFused f1 f2) tbl (constant S8192x256 .f32 0x00000000#32))))
      0x00000000#32 reduces_S8192x256_S8192 (.inl rfl) rfl)
    (broadcast S8192 (Scalar.ofBits .f32 0x43800000#32))

/-- The stored payload is these pieces composed (by unfolding the payload's definitions). -/
theorem payload_eq (x0 x1 : Vec Ideal S8192x8 .f32) (x2 : Vec Ideal S8x10 .f32) (x3 : Vec Ideal S10 .f32) (x4 : Vec Ideal S10x10 .f32)
    (x5 : Vec Ideal S10 .f32) (x6 : Vec Ideal S10x8 .f32) (x7 : Vec Ideal S8 .f32) (x8 : Vec Ideal S15x256 .f32) :
    k0_pay1 (k0_pay4 x6) x7 x8 (k0_pay5 x2 x3 x4 x5 x6 x7 x0) (k0_pay6 x2 x3 x4 x1) (k0_pay7 x5)
      = kTail (kFeat x0 x2 x3 x4 x5 x6 x7) (kFeat x1 x2 x3 x4 x5 x6 x7) x8 := rfl

/-! ## Each piece at a row -/

theorem kLayer1_row (x : FVec Ideal S8192x8 .f32) (w1 : FVec Ideal S8x10 .f32) (b1 : FVec Ideal S10 .f32) (p : Fin 8192) :
    rowOf (kLayer1 x w1 b1) p = relu (dense (rowOf x p) (fun c k => w1 (ix2 k c)) (fun c => b1 (ix1 c))) :=
  funext fun c => by
    show kLayer1 x w1 b1 (ix2 p c) = max (dense (rowOf x p) (fun c k => w1 (ix2 k c)) (fun c => b1 (ix1 c)) c) zero
    unfold kLayer1
    rw [kRelu, kDense dot_S8192x8_S8x10_S8192x10_1_0_0_1_n_n rfl]

theorem kLayer2_row (h : FVec Ideal S8192x10 .f32) (w2 : FVec Ideal S10x10 .f32) (b2 : FVec Ideal S10 .f32) (p : Fin 8192) :
    rowOf (kLayer2 h w2 b2) p = relu (dense (rowOf h p) (fun c k => w2 (ix2 k c)) (fun c => b2 (ix1 c))) :=
  funext fun c => by
    show kLayer2 h w2 b2 (ix2 p c) = max (dense (rowOf h p) (fun c k => w2 (ix2 k c)) (fun c => b2 (ix1 c)) c) zero
    unfold kLayer2
    rw [kRelu, kDense dot_S8192x10_S10x10_S8192x10_1_0_0_1_n_n rfl]

theorem kLayer3_row (h : FVec Ideal S8192x10 .f32) (w3 : FVec Ideal S10x8 .f32) (b3 : FVec Ideal S8 .f32) (p : Fin 8192) :
    rowOf (kLayer3 h w3 b3) p = dense (rowOf h p) (fun c k => w3 (ix2 k c)) (fun c => b3 (ix1 c)) :=
  funext fun c => by
    show kLayer3 h w3 b3 (ix2 p c) = dense (rowOf h p) (fun c k => w3 (ix2 k c)) (fun c => b3 (ix1 c)) c
    unfold kLayer3
    rw [kDense dot_S8192x10_S10x8_S8192x8_1_0_0_1_n_n rfl]

/-- The features of row p of a block are the perceptron of that row. -/
theorem kFeat_row (x : FVec Ideal S8192x8 .f32) (w1 : FVec Ideal S8x10 .f32) (b1 : FVec Ideal S10 .f32) (w2 : FVec Ideal S10x10 .f32)
    (b2 : FVec Ideal S10 .f32) (w3 : FVec Ideal S10x8 .f32) (b3 : FVec Ideal S8 .f32) (p : Fin 8192) :
    rowOf (kFeat x w1 b1 w2 b2 w3 b3) p = mlp (netK w1 b1 w2 b2 w3 b3) (rowOf x p) := by
  unfold kFeat
  rw [kLayer3_row, kLayer2_row, kLayer1_row]
  simp only [shapeCast_self]
  rfl

/-- The fused row p: the spec's fused row of the two feature rows. -/
theorem kFused_apply (f1 f2 : FVec Ideal S8192x8 .f32) (p : Fin 8192) (j : Fin 15) :
    kFused f1 f2 (ix2 p j) = fused (rowOf f1 p) (rowOf f2 p) j := by
  unfold kFused fused
  rw [concat_apply]
  by_cases hj : j.val < 8
  · rw [dif_pos hj, dif_pos hj]
    rfl
  · rw [dif_neg hj, dif_neg hj, subf_apply]
    unfold kPairs
    rw [mulf_apply, mulf_apply, sliceLo_apply, sliceHi_apply, sliceLo_apply, sliceHi_apply]
    rfl

/-- The stored vector at row p: the fused form of the result for the two feature rows. -/
theorem kTail_apply (f1 f2 : FVec Ideal S8192x8 .f32) (tbl : FVec Ideal S15x256 .f32) (p : Fin 8192) :
    kTail f1 f2 tbl (ix1 p) = traceFused (tableOf tbl) (rowOf f1 p) (rowOf f2 p) := by
  unfold kTail traceFused
  rw [divf_apply]
  refine congrArg₂ Ideal.div ?_ rfl
  refine (Cert.KernelIdeal.MvnKernel.multiReduction_add_row _ _ _ _ _ p).trans (Finset.sum_congr rfl fun k _ => ?_)
  show Ideal.cos (zero - matmul dot_S8192x15_S15x256_S8192x256_1_0_0_1_n_n none (kFused f1 f2) tbl (constant S8192x256 .f32 0x00000000#32) (ix2 p k)) = _
  have hm : matmul dot_S8192x15_S15x256_S8192x256_1_0_0_1_n_n none (kFused f1 f2) tbl (constant S8192x256 .f32 0x00000000#32) (ix2 p k)
      = mm (kFused f1 f2) tbl (ix2 p k) := matmul_zero_apply _ rfl none (kFused f1 f2) tbl (ix2 p k)
  rw [hm, mm_ix2]
  refine congrArg (fun v => Ideal.cos (zero - v)) (Finset.sum_congr rfl fun j _ => ?_)
  rw [kFused_apply]
  rfl

/-- The output block after the body, at its row p: the value for rows p of the two input blocks. -/
theorem out_apply (x0 x1 : Vec Ideal S8192x8 .f32) (x2 : Vec Ideal S8x10 .f32) (x3 : Vec Ideal S10 .f32) (x4 : Vec Ideal S10x10 .f32)
    (x5 : Vec Ideal S10 .f32) (x6 : Vec Ideal S10x8 .f32) (x7 : Vec Ideal S8 .f32) (x8 : Vec Ideal S15x256 .f32) (p : Fin 8192) :
    out0_9 x0 x1 x2 x3 x4 x5 x6 x7 x8 (ix1 p) = rowVal (rowOf x0 p) (rowOf x1 p) x2 x3 x4 x5 x6 x7 x8 := by
  unfold out0_9
  rw [View.canon_unit_zero hz1]
  simp only [View.ld_unit_zero (S := S8192x8) hz2, View.ld_unit_zero (S := S8x10) hz2, View.ld_unit_zero (S := S10) hz1,
    View.ld_unit_zero (S := S10x10) hz2, View.ld_unit_zero (S := S10x8) hz2, View.ld_unit_zero (S := S8) hz1,
    View.ld_unit_zero (S := S15x256) hz2]
  rw [payload_eq, kTail_apply, kFeat_row, kFeat_row]
  rfl

end Cert.KernelIdeal.Pay

end
-- ==== Proof.KernelValue.lean ====
import proofs.«171358_j7756710937246_2_alg».proof.Proof.Gen.KernelIdeal.Value
import proofs.«171358_j7756710937246_2_alg».proof.Proof.KernelPayload
import Idealize.ShloMosaic.Lib.Pipeline.Value

/-!
# From blocks to the array, for the idealized kernel

The grid has 8 points. Point t stages rows 8192·t … 8192·t + 8191 of the two [65536, 8] inputs and the whole of the seven
small arrays (three transposed weights, three biases, the 15 × 256 table), and writes back entries 8192·t … 8192·t + 8191 of
the [65536] output. The body's result at row p of its block depends only on rows p of the two input blocks and on the small
arrays, so entry i of the output array after the run is one function of rows i of the two inputs and of the small arrays:
the 8 blocks are disjoint and tile the 65536 entries (entry i lies in the block of point i / 8192).
-/

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Layers

variable (m : (ℓ : Loc nD τ sig) → Buf (Elt Ideal) ℓ) (ρ : Dev nD → PrngReg)

/-- The output array as one function of the arrays the region finds: entry i is the value for rows i of the two inputs. -/
def Gk (A0 A1 : FVec Ideal S65536x8 .f32) (w1 : FVec Ideal S8x10 .f32) (b1 : FVec Ideal S10 .f32) (w2 : FVec Ideal S10x10 .f32)
    (b2 : FVec Ideal S10 .f32) (w3 : FVec Ideal S10x8 .f32) (b3 : FVec Ideal S8 .f32) (tbl : FVec Ideal S15x256 .f32) :
    FVec Ideal S65536 .f32 :=
  fun i => Pay.rowVal (rowOf A0 ⟨(i 0).val, (i 0).isLt⟩) (rowOf A1 ⟨(i 0).val, (i 0).isLt⟩) w1 b1 w2 b2 w3 b3 tbl

/-- The value for a pair of rows depends only on its nine arguments. -/
theorem rowVal_congr {X1 X1' X2 X2' : Fin 8 → EReal} {w1 w1' : FVec Ideal S8x10 .f32} {b1 b1' : FVec Ideal S10 .f32}
    {w2 w2' : FVec Ideal S10x10 .f32} {b2 b2' : FVec Ideal S10 .f32} {w3 w3' : FVec Ideal S10x8 .f32}
    {b3 b3' : FVec Ideal S8 .f32} {tbl tbl' : FVec Ideal S15x256 .f32}
    (h1 : X1 = X1') (h2 : X2 = X2') (h3 : w1 = w1') (h4 : b1 = b1') (h5 : w2 = w2') (h6 : b2 = b2') (h7 : w3 = w3')
    (h8 : b3 = b3') (h9 : tbl = tbl') :
    Pay.rowVal X1 X2 w1 b1 w2 b2 w3 b3 tbl = Pay.rowVal X1' X2' w1' b1' w2' b2' w3' b3' tbl' := by
  subst h1 h2 h3 h4 h5 h6 h7 h8 h9
  rfl

/-- The printed index maps, decided over the 8 grid points: the two row windows move with the output block on the row
    axis and sit at column block 0; the seven small windows sit at block 0 on every axis. -/
theorem idx_facts : ∀ t : Fin cfg0.N,
    win0_0.index t (0 : Fin 2) = win0_9.index t (0 : Fin 1) ∧ win0_0.index t (1 : Fin 2) = 0
    ∧ win0_1.index t (0 : Fin 2) = win0_9.index t (0 : Fin 1) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) ≤ 7 :=
  (by decide +kernel : ∀ t : Fin grid0.N, _)

/-- Every one of the 8 output blocks is some point's. -/
theorem idx_onto : ∀ q : Fin 8, ∃ t : Fin cfg0.N, win0_9.index t (0 : Fin 1) = q.val :=
  (by decide +kernel : ∀ q : Fin 8, ∃ t : Fin grid0.N, win0_9.index t (0 : Fin 1) = q.val)

/-! ## The input blocks, read where the output's block says -/

/-- Rows of the first input's block at point t are the array's rows, 8192·(block index) further down. -/
theorem rows0 (c : Dev nD) (t : Fin cfg0.N) (p : Fin 8192) (r : Fin 65536)
    (hr : r.val = win0_9.index t (0 : Fin 1) * 8192 + 1 * p.val) :
    rowOf (R := 8192) (K := 8) (iblk m c 0 t) p = rowOf (R := 65536) (K := 8) (V m c main_arg0) r := by
  obtain ⟨e0, e1, -⟩ := idx_facts t
  funext k
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 8192 + 1 * p.val = r.val; omega
  | ⟨1, _⟩ => show win0_0.index t (1 : Fin 2) * 8 + 1 * k.val = k.val; omega

/-- Rows of the second input's block at point t are the array's rows, 8192·(block index) further down. -/
theorem rows1 (c : Dev nD) (t : Fin cfg0.N) (p : Fin 8192) (r : Fin 65536)
    (hr : r.val = win0_9.index t (0 : Fin 1) * 8192 + 1 * p.val) :
    rowOf (R := 8192) (K := 8) (iblk m c 1 t) p = rowOf (R := 65536) (K := 8) (V m c main_arg1) r := by
  obtain ⟨-, -, e0, e1, -⟩ := idx_facts t
  funext k
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 8192 + 1 * p.val = r.val; omega
  | ⟨1, _⟩ => show win0_1.index t (1 : Fin 2) * 8 + 1 * k.val = k.val; omega

/-- The first weight's window stages the whole [8, 10] array at every point. -/
theorem whole2 (c : Dev nD) (t : Fin cfg0.N) : (iblk m c 2 t : Vec Ideal S8x10 .f32) = V m c main_v0 := by
  obtain ⟨-, -, -, -, e0, e1, -⟩ := idx_facts t
  funext y
  show V m c main_v0 (((cfg0.win 2).blk t).view.emb y) = V m c main_v0 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 10 + 1 * (y 1).val = (y 1).val; omega

/-- The first bias's window stages the whole [10] array at every point. -/
theorem whole3 (c : Dev nD) (t : Fin cfg0.N) : (iblk m c 3 t : Vec Ideal S10 .f32) = V m c main_arg3 := by
  obtain ⟨-, -, -, -, -, -, e0, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 1) * 10 + 1 * (y 0).val = (y 0).val; omega

/-- The second weight's window stages the whole [10, 10] array at every point. -/
theorem whole4 (c : Dev nD) (t : Fin cfg0.N) : (iblk m c 4 t : Vec Ideal S10x10 .f32) = V m c main_v1 := by
  obtain ⟨-, -, -, -, -, -, -, e0, e1, -⟩ := idx_facts t
  funext y
  show V m c main_v1 (((cfg0.win 4).blk t).view.emb y) = V m c main_v1 y
  refine congrArg _ (funext fun a => Fin.ext ?_)
  match a with
  | ⟨0, _⟩ => show win0_4.index t (0 : Fin 2) * 10 + 1 * (y 0).val = (y 0).val; omega
  | ⟨1, _⟩ => show win0_4.index t (1 : Fin 2) * 10 + 1 * (y 1).val = (y 1).val; omega

/-- The second bias's window stages the whole [10] array at every point. -/
theorem whole5 (c : Dev nD) (t : Fin cfg0.N) : (iblk m c 5 t : Vec Ideal S10 .f32) = V m c main_arg5 := by
  obtain ⟨-, -, -, -, -, -, -, -, -, e0, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 1) * 10 + 1 * (y 0).val = (y 0).val; omega

/-- The third weight's window stages the whole [10, 8] array at every point. -/
theorem whole6 (c : Dev nD) (t : Fin cfg0.N) : (iblk m c 6 t : Vec Ideal S10x8 .f32) = V m c main_v2 := by
  obtain ⟨-, -, -, -, -, -, -, -, -, -, e0, e1, -⟩ := idx_facts t
  funext y
  show V m c main_v2 (((cfg0.win 6).blk t).view.emb y) = V m c main_v2 y
  refine congrArg _ (funext fun a => Fin.ext ?_)
  match a with
  | ⟨0, _⟩ => show win0_6.index t (0 : Fin 2) * 10 + 1 * (y 0).val = (y 0).val; omega
  | ⟨1, _⟩ => show win0_6.index t (1 : Fin 2) * 8 + 1 * (y 1).val = (y 1).val; omega

/-- The third bias's window stages the whole [8] array at every point. -/
theorem whole7 (c : Dev nD) (t : Fin cfg0.N) : (iblk m c 7 t : Vec Ideal S8 .f32) = V m c main_arg7 := by
  obtain ⟨-, -, -, -, -, -, -, -, -, -, -, -, e0, -⟩ := idx_facts t
  funext y
  show V m c main_arg7 (((cfg0.win 7).blk t).view.emb y) = V m c main_arg7 y
  refine congrArg _ (funext fun a => Fin.ext ?_)
  match a with
  | ⟨0, _⟩ => show win0_7.index t (0 : Fin 1) * 8 + 1 * (y 0).val = (y 0).val; omega

/-- The table's window stages the whole [15, 256] array at every point. -/
theorem whole8 (c : Dev nD) (t : Fin cfg0.N) : (iblk m c 8 t : Vec Ideal S15x256 .f32) = V m c main_cst := by
  obtain ⟨-, -, -, -, -, -, -, -, -, -, -, -, -, e0, e1, -⟩ := idx_facts t
  funext y
  show V m c main_cst (((cfg0.win 8).blk t).view.emb y) = V m c main_cst y
  refine congrArg _ (funext fun a => Fin.ext ?_)
  match a with
  | ⟨0, _⟩ => show win0_8.index t (0 : Fin 2) * 15 + 1 * (y 0).val = (y 0).val; omega
  | ⟨1, _⟩ => show win0_8.index t (1 : Fin 2) * 256 + 1 * (y 1).val = (y 1).val; omega

/-! ## What each point writes back, the cover, and the array after the run -/

/-- What point t writes back is block t of `Gk` of the arrays as the region finds them. -/
theorem flushed_eq (c : Dev nD) (t : Fin cfg0.N) :
    (dats m 0 c).flushed 9 t = ((cfg0.win 9).blk t).view.read (Elt Ideal)
      (Gk (V m c main_arg0) (V m c main_arg1) (V m c main_v0) (V m c main_arg3) (V m c main_v1) (V m c main_arg5)
        (V m c main_v2) (V m c main_arg7) (V m c main_cst)) := by
  rw [Cert.KernelIdeal.Value.flushed9]
  funext y
  obtain ⟨p, rfl⟩ : ∃ p : Fin 8192, y = ix1 p := ⟨y 0, eq_ix1 y⟩
  rw [View.read_apply]
  show out0_9 (iblk m c 0 t) (iblk m c 1 t) (iblk m c 2 t) (iblk m c 3 t) (iblk m c 4 t) (iblk m c 5 t) (iblk m c 6 t)
      (iblk m c 7 t) (iblk m c 8 t) (ix1 p) = _
  refine (Pay.out_apply (iblk m c 0 t) (iblk m c 1 t) (iblk m c 2 t) (iblk m c 3 t) (iblk m c 4 t) (iblk m c 5 t)
    (iblk m c 6 t) (iblk m c 7 t) (iblk m c 8 t) p).trans ?_
  unfold Gk
  exact rowVal_congr (rows0 m c t p _ rfl) (rows1 m c t p _ rfl) (whole2 m c t) (whole3 m c t) (whole4 m c t)
    (whole5 m c t) (whole6 m c t) (whole7 m c t) (whole8 m c t)

/-- An entry of the output array is in point t's block iff it is in the block's range. -/
theorem mem_blk (t : Fin cfg0.N) (i : S65536.Idx) :
    i ∈ ((cfg0.win 9).blk t).view.set ↔ ∀ a : Fin 1, win0_9.index t a * S8192.size a ≤ (i a).val
      ∧ (i a).val < win0_9.index t a * S8192.size a + S8192.size a := by
  show i ∈ ((View.whole main_v3).slice (win0_9.rect t)).set ↔ _
  rw [View.set_slice_whole, Rect.mem_set_unit]
  exact Iff.rfl

/-- Every entry of the output array is in some point's block, and every point writes back: entry i is in the block of
    the point whose block index is i / 8192. -/
theorem cover (i : S65536.Idx) :
    ∃ t : Fin cfg0.N, (cfg0.win 9).flush t = true ∧ i ∈ ((cfg0.win 9).blk t).view.set := by
  have hi : (i 0).val < 65536 := (i 0).isLt
  obtain ⟨t, ht⟩ := idx_onto ⟨(i 0).val / 8192, by omega⟩
  have q : win0_9.index t (0 : Fin 1) = (i 0).val / 8192 := ht
  refine ⟨t, flush0_9 t, ?_⟩
  rw [mem_blk]
  intro a
  match a with
  | ⟨0, _⟩ =>
    show win0_9.index t (0 : Fin 1) * 8192 ≤ (i 0).val ∧ (i 0).val < win0_9.index t (0 : Fin 1) * 8192 + 8192
    omega

/-- The output array after the run is `Gk` of the arrays as the region finds them. -/
theorem final (c : Dev nD) : (dats m 0 c).arrAt 9 cfg0.N
    = Gk (V m c main_arg0) (V m c main_arg1) (V m c main_v0) (V m c main_arg3) (V m c main_v1) (V m c main_arg5)
        (V m c main_v2) (V m c main_arg7) (V m c main_cst) :=
  (dats m 0 c).arrAt_eq_of_cover 9 _ (fun t _ => flushed_eq m c t) cover

/-- The run, read: the output array at `Gk` of the arrays as the region finds them, the arguments unchanged. -/
theorem run : θ_run defs (onTc (τ := τ) (main (F := Ideal))) ⟨m, fun _ => 0, ρ⟩ fun r => ∀ c : Dev nD,
      r.2.mem ((c : Thread nD τ).loc main_v3)
        = Gk (V m c main_arg0) (V m c main_arg1) (V m c main_v0) (V m c main_arg3) (V m c main_v1) (V m c main_arg5)
            (V m c main_v2) (V m c main_arg7) (V m c main_cst)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.KValue

end
-- ==== Proof.RefRun.lean ====
/-
  The reference program as a straight line of host operations, and what its result buffer holds when it has run.

  The reference computes, for the two batches of input rows, the perceptron's features (three dense layers, a rectifier after
  the first two — each rectifier a small function of three operations, written out here at its four calls), from the
  features the 256 phases per row against the two sign tables, then the cosine of the phase differences, their sum over
  the 256 basis states, divided by 256. Its result is therefore ONE composed function of the eight argument arrays,
  `refOut`, built below from the same operations in the same order; the arguments themselves are never written.
-/
import proofs.«171358_j7756710937246_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- The table of signs (256 basis states × 8 wires) and of neighbouring sign products (256 × 7), as arrays. -/
def signTable : FVec F S256x8 .f32 := fun i => FloatOps.ofBits .f32 (lit0 (S256x8.rowMajor i))
def pairTable : FVec F S256x7 .f32 := fun i => FloatOps.ofBits .f32 (lit1 (S256x7.rowMajor i))

/-- The zero every rectifier compares with, spread over a hidden layer. -/
def zeros : FVec F S65536x10 .f32 := broadcastInDim S65536x10 ![] bcast_S_S65536x10 (constant S_ .f32 0x00000000#32)

/-- First layer: x · W1ᵀ + b1, rectified. -/
def layer1 (x : FVec F S65536x8 .f32) (W1 : FVec F S10x8 .f32) (b1 : FVec F S10 .f32) : FVec F S65536x10 .f32 :=
  maximumf (addf (Host.dotGeneral dot_S65536x8_S8x10_S65536x10_1_0_0_1_n_n none x (transpose S8x10 [1, 0] W1 transposes_S10x8_S8x10_1_0))
    (broadcastInDim S65536x10 ![0, 1] bcast_S1x10_S65536x10_0_1 (broadcastInDim S1x10 ![1] bcast_S10_S1x10_1 b1))) zeros

/-- Second layer: h · W2ᵀ + b2, rectified. -/
def layer2 (h : FVec F S65536x10 .f32) (W2 : FVec F S10x10 .f32) (b2 : FVec F S10 .f32) : FVec F S65536x10 .f32 :=
  maximumf (addf (Host.dotGeneral dot_S65536x10_S10x10_S65536x10_1_0_0_1_n_n none h (transpose S10x10 [1, 0] W2 transposes_S10x10_S10x10_1_0))
    (broadcastInDim S65536x10 ![0, 1] bcast_S1x10_S65536x10_0_1 (broadcastInDim S1x10 ![1] bcast_S10_S1x10_1 b2))) zeros

/-- Third layer: h · W3ᵀ + b3. -/
def layer3 (h : FVec F S65536x10 .f32) (W3 : FVec F S8x10 .f32) (b3 : FVec F S8 .f32) : FVec F S65536x8 .f32 :=
  addf (Host.dotGeneral dot_S65536x10_S10x8_S65536x8_1_0_0_1_n_n none h (transpose S10x8 [1, 0] W3 transposes_S8x10_S10x8_1_0))
    (broadcastInDim S65536x8 ![0, 1] bcast_S1x8_S65536x8_0_1 (broadcastInDim S1x8 ![1] bcast_S8_S1x8_1 b3))

/-- The perceptron on a whole batch. -/
def features (x : FVec F S65536x8 .f32) (W1 : FVec F S10x8 .f32) (b1 : FVec F S10 .f32) (W2 : FVec F S10x10 .f32) (b2 : FVec F S10 .f32)
    (W3 : FVec F S8x10 .f32) (b3 : FVec F S8 .f32) : FVec F S65536x8 .f32 :=
  layer3 (layer2 (layer1 x W1 b1) W2 b2) W3 b3

/-- π - f, on a whole batch. -/
def piMinus (f : FVec F S65536x8 .f32) : FVec F S65536x8 .f32 :=
  subf (broadcastInDim S65536x8 ![] bcast_S_S65536x8 (constant S_ .f32 0x40490FDB#32)) f

/-- The 256 phases of every row: -(f · Sᵀ + g · SSᵀ), g the neighbour products of π - f. -/
def phases (f : FVec F S65536x8 .f32) : FVec F S65536x256 .f32 :=
  Host.negf (addf (Host.dotGeneral dot_S65536x8_S8x256_S65536x256_1_0_0_1_n_n none f (transpose S8x256 [1, 0] signTable transposes_S256x8_S8x256_1_0))
    (Host.dotGeneral dot_S65536x7_S7x256_S65536x256_1_0_0_1_n_n none
      (mulf (extractStridedSlice S65536x7 ![0, 0] (piMinus f) slices_S65536x8_S65536x7_0_0) (extractStridedSlice S65536x7 ![0, 1] (piMinus f) slices_S65536x8_S65536x7_0_1))
      (transpose S7x256 [1, 0] pairTable transposes_S256x7_S7x256_1_0)))

/-- The mean over the basis states of the cosine of the phase difference, row by row. -/
def meanCos (f1 f2 : FVec F S65536x8 .f32) : FVec F S65536 .f32 :=
  Host.divf (Host.reduceAdd (Host.cos (subf (phases f1) (phases f2))) (constant S_ .f32 0x00000000#32) reducesTo_S65536x256_S65536_d1 h_S_)
    (broadcastInDim S65536 ![] bcast_S_S65536 (constant S_ .f32 0x43800000#32))

/-- The reference's result as one function of its eight arguments. -/
def refOut (x1 x2 : FVec F S65536x8 .f32) (W1 : FVec F S10x8 .f32) (b1 : FVec F S10 .f32) (W2 : FVec F S10x10 .f32) (b2 : FVec F S10 .f32)
    (W3 : FVec F S8x10 .f32) (b3 : FVec F S8 .f32) : FVec F S65536 .f32 :=
  meanCos (features x1 W1 b1 W2 b2 W3 b3) (features x2 W1 b1 W2 b2 W3 b3)

/-! ## The program is the list of its operations -/

/-- The reference's 75 host operations, in order (each rectifier's three written at its call). -/
abbrev ops : List (HloOp τ sig (Elt F)) :=
  [
    StableHlo.nullary main_cst (fun i => FloatOps.ofBits .f32 (lit0 (S256x8.rowMajor i))),
    StableHlo.nullary main_cst_0 (fun i => FloatOps.ofBits .f32 (lit1 (S256x7.rowMajor i))),
    StableHlo.unary main_arg2 main_v0 ((transpose S8x10 [1, 0] · transposes_S10x8_S8x10_1_0) : (⟨S10x8, .f32⟩ : BufTy).Contents (Elt F) → (⟨S8x10, .f32⟩ : BufTy).Contents (Elt F)),
    StableHlo.binary main_arg0 main_v0 main_v1 ((fun l r => Host.dotGeneral dot_S65536x8_S8x10_S65536x10_1_0_0_1_n_n none l r) : (⟨S65536x8, .f32⟩ : BufTy).Contents (Elt F) → (⟨S8x10, .f32⟩ : BufTy).Contents (Elt F) → (⟨S65536x10, .f32⟩ : BufTy).Contents (Elt F)),
    StableHlo.unary main_arg3 main_v2 (broadcastInDim S1x10 ![1] bcast_S10_S1x10_1 : (⟨S10, .f32⟩ : BufTy).Contents (Elt F) → (⟨S1x10, .f32⟩ : BufTy).Contents (Elt F)),
    StableHlo.unary main_v2 main_v3 (broadcastInDim S65536x10 ![0, 1] bcast_S1x10_S65536x10_0_1 : (⟨S1x10, .f32⟩ : BufTy).Contents (Elt F) → (⟨S65536x10, .f32⟩ : BufTy).Contents (Elt F)),
    StableHlo.binary main_v1 main_v3 main_v4 (addf : (⟨S65536x10, .f32⟩ : BufTy).Contents (Elt F) → (⟨S65536x10, .f32⟩ : BufTy).Contents (Elt F) → (⟨S65536x10, .f32⟩ : BufTy).Contents (Elt F)),
    StableHlo.TRef.nullary main_call0.cst (constant S_ .f32 0x00000000#32),
    StableHlo.TRef.unary main_call0.cst main_call0.v0 (broadcastInDim S65536x10 ![] bcast_S_S65536x10),
    StableHlo.TRef.binary (.of main_v4) main_call0.v0 main_call0.v1 maximumf,
    StableHlo.unary main_arg4 main_v6 ((transpose S10x10 [1, 0] · transposes_S10x10_S10x10_1_0) : (⟨S10x10, .f32⟩ : BufTy).Contents (Elt F) → (⟨S10x10, .f32⟩ : BufTy).Contents (Elt F)),
    StableHlo.binary main_v5 main_v6 main_v7 ((fun l r => Host.dotGeneral dot_S65536x10_S10x10_S65536x10_1_0_0_1_n_n none l r) : (⟨S65536x10, .f32⟩ : BufTy).Contents (Elt F) → (⟨S10x10, .f32⟩ : BufTy).Contents (Elt F) → (⟨S65536x10, .f32⟩ : BufTy).Contents (Elt F)),
    StableHlo.unary main_arg5 main_v8 (broadcastInDim S1x10 ![1] bcast_S10_S1x10_1 : (⟨S10, .f32⟩ : BufTy).Contents (Elt F) → (⟨S1x10, .f32⟩ : BufTy).Contents (Elt F)),
    StableHlo.unary main_v8 main_v9 (broadcastInDim S65536x10 ![0, 1] bcast_S1x10_S65536x10_0_1 : (⟨S1x10, .f32⟩ : BufTy).Contents (Elt F) → (⟨S65536x10, .f32⟩ : BufTy).Contents (Elt F)),
    StableHlo.binary main_v7 main_v9 main_v10 (addf : (⟨S65536x10, .f32⟩ : BufTy).Contents (Elt F) → (⟨S65536x10, .f32⟩ : BufTy).Contents (Elt F) → (⟨S65536x10, .f32⟩ : BufTy).Contents (Elt F)),
    StableHlo.TRef.nullary main_call1.cst (constant S_ .f32 0x00000000#32),
    StableHlo.TRef.unary main_call1.cst main_call1.v0 (broadcastInDim S65536x10 ![] bcast_S_S65536x10),
    StableHlo.TRef.binary (.of main_v10) main_call1.v0 main_call1.v1 maximumf,
    StableHlo.unary main_arg6 main_v12 ((transpose S10x8 [1, 0] · transposes_S8x10_S10x8_1_0) : (⟨S8x10, .f32⟩ : BufTy).Contents (Elt F) → (⟨S10x8, .f32⟩ : BufTy).Contents (Elt F)),
    StableHlo.binary main_v11 main_v12 main_v13 ((fun l r => Host.dotGeneral dot_S65536x10_S10x8_S65536x8_1_0_0_1_n_n none l r) : (⟨S65536x10, .f32⟩ : BufTy).Contents (Elt F) → (⟨S10x8, .f32⟩ : BufTy).Contents (Elt F) → (⟨S65536x8, .f32⟩ : BufTy).Contents (Elt F)),
    StableHlo.unary main_arg7 main_v14 (broadcastInDim S1x8 ![1] bcast_S8_S1x8_1 : (⟨S8, .f32⟩ : BufTy).Contents (Elt F) → (⟨S1x8, .f32⟩ : BufTy).Contents (Elt F)),
    StableHlo.unary main_v14 main_v15 (broadcastInDim S65536x8 ![0, 1] bcast_S1x8_S65536x8_0_1 : (⟨S1x8, .f32⟩ : BufTy).Contents (Elt F) → (⟨S65536x8, .f32⟩ : BufTy).Contents (Elt F)),
    StableHlo.binary main_v13 main_v15 main_v16 (addf : (⟨S65536x8, .f32⟩ : BufTy).Contents (Elt F) → (⟨S65536x8, .f32⟩ : BufTy).Contents (Elt F) → (⟨S65536x8, .f32⟩ : BufTy).Contents (Elt F)),
    StableHlo.unary main_arg2 main_v17 ((transpose S8x10 [1, 0] · transposes_S10x8_S8x10_1_0) : (⟨S10x8, .f32⟩ : BufTy).Contents (Elt F) → (⟨S8x10, .f32⟩ : BufTy).Contents (Elt F)),
    StableHlo.binary main_arg1 main_v17 main_v18 ((fun l r => Host.dotGeneral dot_S65536x8_S8x10_S65536x10_1_0_0_1_n_n none l r) : (⟨S65536x8, .f32⟩ : BufTy).Contents (Elt F) → (⟨S8x10, .f32⟩ : BufTy).Contents (Elt F) → (⟨S65536x10, .f32⟩ : BufTy).Contents (Elt F)),
    StableHlo.unary main_arg3 main_v19 (broadcastInDim S1x10 ![1] bcast_S10_S1x10_1 : (⟨S10, .f32⟩ : BufTy).Contents (Elt F) → (⟨S1x10, .f32⟩ : BufTy).Contents (Elt F)),
    StableHlo.unary main_v19 main_v20 (broadcastInDim S65536x10 ![0, 1] bcast_S1x10_S65536x10_0_1 : (⟨S1x10, .f32⟩ : BufTy).Contents (Elt F) → (⟨S65536x10, .f32⟩ : BufTy).Contents (Elt F)),
    StableHlo.binary main_v18 main_v20 main_v21 (addf : (⟨S65536x10, .f32⟩ : BufTy).Contents (Elt F) → (⟨S65536x10, .f32⟩ : BufTy).Contents (Elt F) → (⟨S65536x10, .f32⟩ : BufTy).Contents (Elt F)),
    StableHlo.TRef.nullary main_call2.cst (constant S_ .f32 0x00000000#32),
    StableHlo.TRef.unary main_call2.cst main_call2.v0 (broadcastInDim S65536x10 ![] bcast_S_S65536x10),
    StableHlo.TRef.binary (.of main_v21) main_call2.v0 main_call2.v1 maximumf,
    StableHlo.unary main_arg4 main_v23 ((transpose S10x10 [1, 0] · transposes_S10x10_S10x10_1_0) : (⟨S10x10, .f32⟩ : BufTy).Contents (Elt F) → (⟨S10x10, .f32⟩ : BufTy).Contents (Elt F)),
    StableHlo.binary main_v22 main_v23 main_v24 ((fun l r => Host.dotGeneral dot_S65536x10_S10x10_S65536x10_1_0_0_1_n_n none l r) : (⟨S65536x10, .f32⟩ : BufTy).Contents (Elt F) → (⟨S10x10, .f32⟩ : BufTy).Contents (Elt F) → (⟨S65536x10, .f32⟩ : BufTy).Contents (Elt F)),
    StableHlo.unary main_arg5 main_v25 (broadcastInDim S1x10 ![1] bcast_S10_S1x10_1 : (⟨S10, .f32⟩ : BufTy).Contents (Elt F) → (⟨S1x10, .f32⟩ : BufTy).Contents (Elt F)),
    StableHlo.unary main_v25 main_v26 (broadcastInDim S65536x10 ![0, 1] bcast_S1x10_S65536x10_0_1 : (⟨S1x10, .f32⟩ : BufTy).Contents (Elt F) → (⟨S65536x10, .f32⟩ : BufTy).Contents (Elt F)),
    StableHlo.binary main_v24 main_v26 main_v27 (addf : (⟨S65536x10, .f32⟩ : BufTy).Contents (Elt F) → (⟨S65536x10, .f32⟩ : BufTy).Contents (Elt F) → (⟨S65536x10, .f32⟩ : BufTy).Contents (Elt F)),
    StableHlo.TRef.nullary main_call3.cst (constant S_ .f32 0x00000000#32),
    StableHlo.TRef.unary main_call3.cst main_call3.v0 (broadcastInDim S65536x10 ![] bcast_S_S65536x10),
    StableHlo.TRef.binary (.of main_v27) main_call3.v0 main_call3.v1 maximumf,
    StableHlo.unary main_arg6 main_v29 ((transpose S10x8 [1, 0] · transposes_S8x10_S10x8_1_0) : (⟨S8x10, .f32⟩ : BufTy).Contents (Elt F) → (⟨S10x8, .f32⟩ : BufTy).Contents (Elt F)),
    StableHlo.binary main_v28 main_v29 main_v30 ((fun l r => Host.dotGeneral dot_S65536x10_S10x8_S65536x8_1_0_0_1_n_n none l r) : (⟨S65536x10, .f32⟩ : BufTy).Contents (Elt F) → (⟨S10x8, .f32⟩ : BufTy).Contents (Elt F) → (⟨S65536x8, .f32⟩ : BufTy).Contents (Elt F)),
    StableHlo.unary main_arg7 main_v31 (broadcastInDim S1x8 ![1] bcast_S8_S1x8_1 : (⟨S8, .f32⟩ : BufTy).Contents (Elt F) → (⟨S1x8, .f32⟩ : BufTy).Contents (Elt F)),
    StableHlo.unary main_v31 main_v32 (broadcastInDim S65536x8 ![0, 1] bcast_S1x8_S65536x8_0_1 : (⟨S1x8, .f32⟩ : BufTy).Contents (Elt F) → (⟨S65536x8, .f32⟩ : BufTy).Contents (Elt F)),
    StableHlo.binary main_v30 main_v32 main_v33 (addf : (⟨S65536x8, .f32⟩ : BufTy).Contents (Elt F) → (⟨S65536x8, .f32⟩ : BufTy).Contents (Elt F) → (⟨S65536x8, .f32⟩ : BufTy).Contents (Elt F)),
    StableHlo.nullary main_cst_1 (constant S_ .f32 0x40490FDB#32),
    StableHlo.unary main_cst_1 main_v34 (broadcastInDim S65536x8 ![] bcast_S_S65536x8 : (⟨S_, .f32⟩ : BufTy).Contents (Elt F) → (⟨S65536x8, .f32⟩ : BufTy).Contents (Elt F)),
    StableHlo.binary main_v34 main_v16 main_v35 (subf : (⟨S65536x8, .f32⟩ : BufTy).Contents (Elt F) → (⟨S65536x8, .f32⟩ : BufTy).Contents (Elt F) → (⟨S65536x8, .f32⟩ : BufTy).Contents (Elt F)),
    StableHlo.unary main_cst main_v36 ((transpose S8x256 [1, 0] · transposes_S256x8_S8x256_1_0) : (⟨S256x8, .f32⟩ : BufTy).Contents (Elt F) → (⟨S8x256, .f32⟩ : BufTy).Contents (Elt F)),
    StableHlo.binary main_v16 main_v36 main_v37 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    StableHlo.unary main_v35 main_v38 ((extractStridedSlice S65536x7 ![0, 0] · slices_S65536x8_S65536x7_0_0) : (⟨S65536x8, .f32⟩ : BufTy).Contents (Elt F) → (⟨S65536x7, .f32⟩ : BufTy).Contents (Elt F)),
    StableHlo.unary main_v35 main_v39 ((extractStridedSlice S65536x7 ![0, 1] · slices_S65536x8_S65536x7_0_1) : (⟨S65536x8, .f32⟩ : BufTy).Contents (Elt F) → (⟨S65536x7, .f32⟩ : BufTy).Contents (Elt F)),
    StableHlo.binary main_v38 main_v39 main_v40 (mulf : (⟨S65536x7, .f32⟩ : BufTy).Contents (Elt F) → (⟨S65536x7, .f32⟩ : BufTy).Contents (Elt F) → (⟨S65536x7, .f32⟩ : BufTy).Contents (Elt F)),
    StableHlo.unary main_cst_0 main_v41 ((transpose S7x256 [1, 0] · transposes_S256x7_S7x256_1_0) : (⟨S256x7, .f32⟩ : BufTy).Contents (Elt F) → (⟨S7x256, .f32⟩ : BufTy).Contents (Elt F)),
    StableHlo.binary main_v40 main_v41 main_v42 ((fun l r => Host.dotGeneral dot_S65536x7_S7x256_S65536x256_1_0_0_1_n_n none l r) : (⟨S65536x7, .f32⟩ : BufTy).Contents (Elt F) → (⟨S7x256, .f32⟩ : BufTy).Contents (Elt F) → (⟨S65536x256, .f32⟩ : BufTy).Contents (Elt F)),
    StableHlo.binary main_v37 main_v42 main_v43 (addf : (⟨S65536x256, .f32⟩ : BufTy).Contents (Elt F) → (⟨S65536x256, .f32⟩ : BufTy).Contents (Elt F) → (⟨S65536x256, .f32⟩ : BufTy).Contents (Elt F)),
    StableHlo.unary main_v43 main_v44 (Host.negf : (⟨S65536x256, .f32⟩ : BufTy).Contents (Elt F) → (⟨S65536x256, .f32⟩ : BufTy).Contents (Elt F)),
    StableHlo.nullary main_cst_2 (constant S_ .f32 0x40490FDB#32),
    StableHlo.unary main_cst_2 main_v45 (broadcastInDim S65536x8 ![] bcast_S_S65536x8 : (⟨S_, .f32⟩ : BufTy).Contents (Elt F) → (⟨S65536x8, .f32⟩ : BufTy).Contents (Elt F)),
    StableHlo.binary main_v45 main_v33 main_v46 (subf : (⟨S65536x8, .f32⟩ : BufTy).Contents (Elt F) → (⟨S65536x8, .f32⟩ : BufTy).Contents (Elt F) → (⟨S65536x8, .f32⟩ : BufTy).Contents (Elt F)),
    StableHlo.unary main_cst main_v47 ((transpose S8x256 [1, 0] · transposes_S256x8_S8x256_1_0) : (⟨S256x8, .f32⟩ : BufTy).Contents (Elt F) → (⟨S8x256, .f32⟩ : BufTy).Contents (Elt F)),
    StableHlo.binary main_v33 main_v47 main_v48 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    StableHlo.unary main_v46 main_v49 ((extractStridedSlice S65536x7 ![0, 0] · slices_S65536x8_S65536x7_0_0) : (⟨S65536x8, .f32⟩ : BufTy).Contents (Elt F) → (⟨S65536x7, .f32⟩ : BufTy).Contents (Elt F)),
    StableHlo.unary main_v46 main_v50 ((extractStridedSlice S65536x7 ![0, 1] · slices_S65536x8_S65536x7_0_1) : (⟨S65536x8, .f32⟩ : BufTy).Contents (Elt F) → (⟨S65536x7, .f32⟩ : BufTy).Contents (Elt F)),
    StableHlo.binary main_v49 main_v50 main_v51 (mulf : (⟨S65536x7, .f32⟩ : BufTy).Contents (Elt F) → (⟨S65536x7, .f32⟩ : BufTy).Contents (Elt F) → (⟨S65536x7, .f32⟩ : BufTy).Contents (Elt F)),
    StableHlo.unary main_cst_0 main_v52 ((transpose S7x256 [1, 0] · transposes_S256x7_S7x256_1_0) : (⟨S256x7, .f32⟩ : BufTy).Contents (Elt F) → (⟨S7x256, .f32⟩ : BufTy).Contents (Elt F)),
    StableHlo.binary main_v51 main_v52 main_v53 ((fun l r => Host.dotGeneral dot_S65536x7_S7x256_S65536x256_1_0_0_1_n_n none l r) : (⟨S65536x7, .f32⟩ : BufTy).Contents (Elt F) → (⟨S7x256, .f32⟩ : BufTy).Contents (Elt F) → (⟨S65536x256, .f32⟩ : BufTy).Contents (Elt F)),
    StableHlo.binary main_v48 main_v53 main_v54 (addf : (⟨S65536x256, .f32⟩ : BufTy).Contents (Elt F) → (⟨S65536x256, .f32⟩ : BufTy).Contents (Elt F) → (⟨S65536x256, .f32⟩ : BufTy).Contents (Elt F)),
    StableHlo.unary main_v54 main_v55 (Host.negf : (⟨S65536x256, .f32⟩ : BufTy).Contents (Elt F) → (⟨S65536x256, .f32⟩ : BufTy).Contents (Elt F)),
    StableHlo.binary main_v44 main_v55 main_v56 (subf : (⟨S65536x256, .f32⟩ : BufTy).Contents (Elt F) → (⟨S65536x256, .f32⟩ : BufTy).Contents (Elt F) → (⟨S65536x256, .f32⟩ : BufTy).Contents (Elt F)),
    StableHlo.unary main_v56 main_v57 (Host.cos : (⟨S65536x256, .f32⟩ : BufTy).Contents (Elt F) → (⟨S65536x256, .f32⟩ : BufTy).Contents (Elt F)),
    StableHlo.nullary main_cst_3 (constant S_ .f32 0x00000000#32),
    StableHlo.binary main_v57 main_cst_3 main_v58 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    StableHlo.nullary main_cst_4 (constant S_ .f32 0x43800000#32),
    StableHlo.unary main_cst_4 main_v59 (broadcastInDim S65536 ![] bcast_S_S65536 : (⟨S_, .f32⟩ : BufTy).Contents (Elt F) → (⟨S65536, .f32⟩ : BufTy).Contents (Elt F)),
    StableHlo.binary main_v58 main_v59 main_v60 (Host.divf : (⟨S65536, .f32⟩ : BufTy).Contents (Elt F) → (⟨S65536, .f32⟩ : BufTy).Contents (Elt F) → (⟨S65536, .f32⟩ : BufTy).Contents (Elt F)) ]

set_option maxRecDepth 4096 in
set_option maxHeartbeats 4000000 in
/-- The printed program, its two windows and the rectifier's body unfolded and the sequencing reassociated, is that list run in order. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., unary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., unary_bufs_sub .., binary_bufs_sub .., unary_bufs_sub .., nullary_bufs_sub .., binary_bufs_sub ..,
    nullary_bufs_sub .., unary_bufs_sub .., binary_bufs_sub ..⟩

/-- Every weakly fair execution of the reference terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefOut.lean ====
/-
  What the reference leaves in its result buffer: the composed function `refOut` of the eight argument arrays, which
  themselves end as they were launched (no operation writes an argument).
-/
import proofs.«171358_j7756710937246_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Folding the 75 operations over any contents, the result buffer holds `refOut` of the arguments' contents: each
    operation's result is its function of its operands' contents, and an operation leaves every other buffer alone. -/
theorem out_eq (V : Valuation τ sig (Elt F)) :
    after ops V (Proc.devRef .tc main_v60)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  rfl

set_option maxRecDepth 8192 in
set_option maxHeartbeats 4000000 in
theorem main_arg0_eq (V : Valuation τ sig (Elt F)) : after ops V (Proc.devRef .tc main_arg0) = V (Proc.devRef .tc main_arg0) := by
  after_results_simp

set_option maxRecDepth 8192 in
set_option maxHeartbeats 4000000 in
theorem main_arg1_eq (V : Valuation τ sig (Elt F)) : after ops V (Proc.devRef .tc main_arg1) = V (Proc.devRef .tc main_arg1) := by
  after_results_simp

set_option maxRecDepth 8192 in
set_option maxHeartbeats 4000000 in
theorem main_arg2_eq (V : Valuation τ sig (Elt F)) : after ops V (Proc.devRef .tc main_arg2) = V (Proc.devRef .tc main_arg2) := by
  after_results_simp

set_option maxRecDepth 8192 in
set_option maxHeartbeats 4000000 in
theorem main_arg3_eq (V : Valuation τ sig (Elt F)) : after ops V (Proc.devRef .tc main_arg3) = V (Proc.devRef .tc main_arg3) := by
  after_results_simp

set_option maxRecDepth 8192 in
set_option maxHeartbeats 4000000 in
theorem main_arg4_eq (V : Valuation τ sig (Elt F)) : after ops V (Proc.devRef .tc main_arg4) = V (Proc.devRef .tc main_arg4) := by
  after_results_simp

set_option maxRecDepth 8192 in
set_option maxHeartbeats 4000000 in
theorem main_arg5_eq (V : Valuation τ sig (Elt F)) : after ops V (Proc.devRef .tc main_arg5) = V (Proc.devRef .tc main_arg5) := by
  after_results_simp

set_option maxRecDepth 8192 in
set_option maxHeartbeats 4000000 in
theorem main_arg6_eq (V : Valuation τ sig (Elt F)) : after ops V (Proc.devRef .tc main_arg6) = V (Proc.devRef .tc main_arg6) := by
  after_results_simp

set_option maxRecDepth 8192 in
set_option maxHeartbeats 4000000 in
theorem main_arg7_eq (V : Valuation τ sig (Elt F)) : after ops V (Proc.devRef .tc main_arg7) = V (Proc.devRef .tc main_arg7) := by
  after_results_simp

/-- Every weakly fair execution of the reference terminates with its result at `refOut` of the arguments as launched, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v60).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _)⟩)
    (run_fold m ρ)

end Cert.ReferenceIdeal.RefRun

end
-- ==== Proof.RefValue.lean ====
/-
  The reference's result, row by row.

  Each dense layer of the reference, read at a row, is the spec's dense layer of that row; so the features of row r are
  the perceptron of row r. The phases of row r are minus the contraction of the features with the sign table plus the
  contraction of their neighbour products with the pair table, and the result at r is the sum over the 256 basis states
  of the cosine of the phase differences, from the zero the sum starts at, divided by 256: the function `G`.
-/
import proofs.«171358_j7756710937246_2_alg».proof.Proof.RefRun
import proofs.«171358_j7756710937246_2_alg».proof.Proof.Layers

noncomputable section

namespace Cert.ReferenceIdeal.RefValue

open Cert.ReferenceIdeal Cert.ReferenceIdeal.Gen Cert.ReferenceIdeal.RefRun Idealize.ShloMosaic Idealize.ShloMosaic.ValueIdx
open Cert.Spec Cert.Layers Cert.Lib.PlainDot
open scoped BigOperators

/-- The first layer at row r. -/
theorem layer1_row (x : FVec Ideal S65536x8 .f32) (W1 : FVec Ideal S10x8 .f32) (b1 : FVec Ideal S10 .f32) (r : Fin 65536) :
    rowOf (layer1 x W1 b1) r = relu (dense (rowOf x r) (fun c k => W1 (ix2 c k)) (fun c => b1 (ix1 c))) :=
  funext fun c => by
    show layer1 x W1 b1 (ix2 r c) = max (dense (rowOf x r) (fun c k => W1 (ix2 c k)) (fun c => b1 (ix1 c)) c) zero
    unfold layer1 zeros
    rw [hRelu, hDense dot_S65536x8_S8x10_S65536x10_1_0_0_1_n_n rfl]

/-- The second layer at row r. -/
theorem layer2_row (h : FVec Ideal S65536x10 .f32) (W2 : FVec Ideal S10x10 .f32) (b2 : FVec Ideal S10 .f32) (r : Fin 65536) :
    rowOf (layer2 h W2 b2) r = relu (dense (rowOf h r) (fun c k => W2 (ix2 c k)) (fun c => b2 (ix1 c))) :=
  funext fun c => by
    show layer2 h W2 b2 (ix2 r c) = max (dense (rowOf h r) (fun c k => W2 (ix2 c k)) (fun c => b2 (ix1 c)) c) zero
    unfold layer2 zeros
    rw [hRelu, hDense dot_S65536x10_S10x10_S65536x10_1_0_0_1_n_n rfl]

/-- The third layer at row r. -/
theorem layer3_row (h : FVec Ideal S65536x10 .f32) (W3 : FVec Ideal S8x10 .f32) (b3 : FVec Ideal S8 .f32) (r : Fin 65536) :
    rowOf (layer3 h W3 b3) r = dense (rowOf h r) (fun c k => W3 (ix2 c k)) (fun c => b3 (ix1 c)) :=
  funext fun c => by
    show layer3 h W3 b3 (ix2 r c) = dense (rowOf h r) (fun c k => W3 (ix2 c k)) (fun c => b3 (ix1 c)) c
    unfold layer3
    rw [hDense dot_S65536x10_S10x8_S65536x8_1_0_0_1_n_n rfl]

/-- The features of row r are the perceptron of row r. -/
theorem features_row (x : FVec Ideal S65536x8 .f32) (W1 : FVec Ideal S10x8 .f32) (b1 : FVec Ideal S10 .f32) (W2 : FVec Ideal S10x10 .f32)
    (b2 : FVec Ideal S10 .f32) (W3 : FVec Ideal S8x10 .f32) (b3 : FVec Ideal S8 .f32) (r : Fin 65536) :
    rowOf (features x W1 b1 W2 b2 W3 b3) r = mlp (netOf W1 b1 W2 b2 W3 b3) (rowOf x r) := by
  unfold features
  rw [layer3_row, layer2_row, layer1_row]
  rfl

/-- π - f at an entry. -/
theorem piMinus_apply (f : FVec Ideal S65536x8 .f32) (r : Fin 65536) (j : Fin 8) : piMinus f (ix2 r j) = pi32 - f (ix2 r j) := by
  unfold piMinus
  rw [subf_apply, broadcastInDim_scalar_apply]
  rfl

/-- The phase of basis state k for row r. -/
theorem phases_apply (f : FVec Ideal S65536x8 .f32) (r : Fin 65536) (k : Fin 256) :
    phases f (ix2 r k) = angle (tableOf (signTable (F := Ideal))) (tableOf (pairTable (F := Ideal))) (rowOf f r) k := by
  unfold phases
  have h1 : Host.dotGeneral dot_S65536x8_S8x256_S65536x256_1_0_0_1_n_n none f (transpose S8x256 [1, 0] (signTable (F := Ideal)) transposes_S256x8_S8x256_1_0) (ix2 r k)
      = ∑ j : Fin 8, f (ix2 r j) * signTable (F := Ideal) (ix2 k j) := by
    rw [show Host.dotGeneral dot_S65536x8_S8x256_S65536x256_1_0_0_1_n_n none f (transpose S8x256 [1, 0] (signTable (F := Ideal)) transposes_S256x8_S8x256_1_0) (ix2 r k)
        = mm f (transpose S8x256 [1, 0] (signTable (F := Ideal)) transposes_S256x8_S8x256_1_0) (ix2 r k) from dotGeneral_apply _ rfl none .single f _ (ix2 r k), mm_ix2]
    exact Finset.sum_congr rfl fun j _ => congrArg (f (ix2 r j) * ·) (transpose_ix2_apply (signTable (F := Ideal)) transposes_S256x8_S8x256_1_0 j k)
  have h2 : ∀ (g : FVec Ideal S65536x7 .f32), Host.dotGeneral dot_S65536x7_S7x256_S65536x256_1_0_0_1_n_n none g (transpose S7x256 [1, 0] (pairTable (F := Ideal)) transposes_S256x7_S7x256_1_0) (ix2 r k)
      = ∑ j : Fin 7, g (ix2 r j) * pairTable (F := Ideal) (ix2 k j) := fun g => by
    rw [show Host.dotGeneral dot_S65536x7_S7x256_S65536x256_1_0_0_1_n_n none g (transpose S7x256 [1, 0] (pairTable (F := Ideal)) transposes_S256x7_S7x256_1_0) (ix2 r k)
        = mm g (transpose S7x256 [1, 0] (pairTable (F := Ideal)) transposes_S256x7_S7x256_1_0) (ix2 r k) from dotGeneral_apply _ rfl none .single g _ (ix2 r k), mm_ix2]
    exact Finset.sum_congr rfl fun j _ => congrArg (g (ix2 r j) * ·) (transpose_ix2_apply (pairTable (F := Ideal)) transposes_S256x7_S7x256_1_0 j k)
  have hn : ∀ (X : FVec Ideal S65536x256 .f32) (i : S65536x256.Idx), Host.negf X i = -(X i) := fun _ _ => rfl
  rw [hn, addf_apply, h1, h2]
  unfold angle
  refine congrArg (fun v => -((∑ j : Fin 8, f (ix2 r j) * signTable (F := Ideal) (ix2 k j)) + v)) (Finset.sum_congr rfl fun j _ => ?_)
  rw [mulf_apply, sliceLo_apply, sliceHi_apply, piMinus_apply, piMinus_apply]
  rfl

/-- The result at row r, from the two feature arrays. -/
theorem meanCos_apply (f1 f2 : FVec Ideal S65536x8 .f32) (r : Fin 65536) :
    meanCos f1 f2 (ix1 r) = trace (tableOf (signTable (F := Ideal))) (tableOf (pairTable (F := Ideal))) (rowOf f1 r) (rowOf f2 r) := by
  unfold meanCos trace
  have hd : ∀ (a b : FVec Ideal S65536 .f32), Host.divf a b (ix1 r) = Ideal.div (a (ix1 r)) (b (ix1 r)) := fun _ _ => rfl
  have hc : ∀ (X : FVec Ideal S65536x256 .f32) (i : S65536x256.Idx), Host.cos X i = Ideal.cos (X i) := fun _ _ => rfl
  rw [hd, hostSum_row _ _ _ (by decide), broadcastInDim_scalar_apply]
  refine congrArg (fun v => Ideal.div (zero + v) c256) (Finset.sum_congr rfl fun k _ => ?_)
  rw [hc, subf_apply, phases_apply, phases_apply]

/-- THE REFERENCE'S RESULT is the function `G` of its arguments and its two tables. -/
theorem refOut_eq (x1 x2 : FVec Ideal S65536x8 .f32) (W1 : FVec Ideal S10x8 .f32) (b1 : FVec Ideal S10 .f32) (W2 : FVec Ideal S10x10 .f32)
    (b2 : FVec Ideal S10 .f32) (W3 : FVec Ideal S8x10 .f32) (b3 : FVec Ideal S8 .f32) :
    refOut x1 x2 W1 b1 W2 b2 W3 b3 = G (tableOf (signTable (F := Ideal))) (tableOf (pairTable (F := Ideal))) x1 x2 W1 b1 W2 b2 W3 b3 := by
  funext i
  obtain ⟨r, rfl⟩ : ∃ r : Fin 65536, i = ix1 r := ⟨i 0, eq_ix1 i⟩
  unfold refOut
  rw [meanCos_apply, features_row, features_row, G_ix1]

end Cert.ReferenceIdeal.RefValue

end
-- ==== Proof.Tables.lean ====
import proofs.«171358_j7756710937246_2_alg».proof.KernelIdeal
import proofs.«171358_j7756710937246_2_alg».proof.ReferenceIdeal
import Idealize.ShloMosaic.PureOps.Ideal
import Idealize.ShloMosaic.PureOps.Ideal.Laws

/-!
# The constant sign tables and a few float literals

The kernel multiplies by one dense 15 × 256 table of entries ±1, stored row-major (entry `j * 256 + k`):
rows 0..7 hold the sign attached to bit `7 - j` of `k`, rows 8..14 the products of neighbouring signs.
The reference uses two tables holding the same numbers transposed: a 256 × 8 table (entry `k * 8 + j`)
and a 256 × 7 table (entry `k * 7 + j`).  Here we record that the kernel's table is the transpose of the
reference's two tables stacked, that every entry is the bit pattern of +1 or of -1, and the ideal (real)
values of the few float bit patterns that occur.  The table facts are finite checks, decided by evaluation.
-/

namespace Cert.Tables

open Idealize.ShloMosaic

set_option maxRecDepth 100000 in
/-- Rows 0..7 of the kernel's table are the columns of the reference's 256 × 8 sign table. -/
theorem sign_rows : ∀ (j : Fin 8) (k : Fin 256),
    Cert.KernelIdeal.lit0t (j.val * 256 + k.val) = Cert.ReferenceIdeal.lit0t (k.val * 8 + j.val) := by
  decide +kernel

set_option maxRecDepth 100000 in
/-- Rows 8..14 of the kernel's table are the columns of the reference's 256 × 7 table of sign products. -/
theorem pair_rows : ∀ (j : Fin 7) (k : Fin 256),
    Cert.KernelIdeal.lit0t ((8 + j.val) * 256 + k.val) = Cert.ReferenceIdeal.lit1t (k.val * 7 + j.val) := by
  decide +kernel

set_option maxRecDepth 100000 in
/-- Every entry of the 256 × 8 sign table is the bit pattern of +1 or of -1. -/
theorem sign_pm : ∀ i : Fin 2048,
    Cert.ReferenceIdeal.lit0t i.val = 0x3F800000#32 ∨ Cert.ReferenceIdeal.lit0t i.val = 0xBF800000#32 := by
  decide +kernel

set_option maxRecDepth 100000 in
/-- Every entry of the 256 × 7 table of sign products is the bit pattern of +1 or of -1. -/
theorem pair_pm : ∀ i : Fin 1792,
    Cert.ReferenceIdeal.lit1t i.val = 0x3F800000#32 ∨ Cert.ReferenceIdeal.lit1t i.val = 0xBF800000#32 := by
  decide +kernel

/-! ## The float literals that occur, at their ideal (extended real) values -/

/-- The bit pattern `0x3F800000` (sign 0, exponent field 127, fraction 0) denotes the real number 1. -/
theorem ofBits_one : Idealize.ShloMosaic.Ideal.ofBits .f32 0x3F800000#32 = ((1 : ℝ) : EReal) := by
  simp [Ideal.ofBits, Ideal.ieee, -EReal.coe_mul]; norm_num

/-- The bit pattern `0xBF800000` (sign 1, exponent field 127, fraction 0) denotes the real number -1. -/
theorem ofBits_neg_one : Idealize.ShloMosaic.Ideal.ofBits .f32 0xBF800000#32 = ((-1 : ℝ) : EReal) := by
  simp [Ideal.ofBits, Ideal.ieee, -EReal.coe_mul]; norm_num

/-- The bit pattern `0x40490FDB` (the float nearest π: exponent field 128, neither all ones nor zero, so a normal
    number, `13176795 · 2⁻²²`) denotes a real number. -/
theorem ofBits_pi_real : ∃ r : ℝ, Idealize.ShloMosaic.Ideal.ofBits .f32 0x40490FDB#32 = (r : EReal) := by
  simp only [Ideal.ofBits, Ideal.ieee]
  rw [if_neg (by decide), if_neg (by decide)]
  exact ⟨_, rfl⟩

/-- The all-zero bit pattern denotes 0. -/
theorem ofBits_zero : Idealize.ShloMosaic.Ideal.ofBits .f32 0x00000000#32 = 0 := Ideal.ofBits_zero_f32

end Cert.Tables
-- ==== Proof.Bridge.lean ====
/-
  The kernel's stored value is the reference's, row by row.

  The kernel's one table has as its first eight rows the sign table transposed and as its last seven the pair table
  transposed (checked entry by entry on the printed tables); every entry of the two tables is +1 or -1, so real. The host
  operations before the kernel's region leave it the three weights transposed and the table; a transposed weight read
  input-major is the weight read output-major, so the kernel's perceptron is the reference's. With real input rows and real
  weights the features are real, and the fused form of the result is the result (the regrouping law).
-/
import proofs.«171358_j7756710937246_2_alg».proof.Proof.KernelPayload
import proofs.«171358_j7756710937246_2_alg».proof.Proof.RefValue
import proofs.«171358_j7756710937246_2_alg».proof.Proof.Tables
import Idealize.ShloMosaic.Lib.StableHlo.Run

noncomputable section

namespace Cert.Bridge

open Idealize.ShloMosaic Idealize.ShloMosaic.ValueIdx Idealize.ShloMosaic.TcCoe Idealize.SL.Sem Idealize.ShloMosaic.StableHlo
open Cert.Spec Cert.Layers SageMath
open Cert.ReferenceIdeal.RefRun (signTable pairTable)

/-! ## The tables -/

/-- The kernel's 15 × 256 table as an array. -/
def kTable : FVec Ideal Cert.KernelIdeal.S15x256 .f32 := fun i => Ideal.ofBits .f32 (Cert.KernelIdeal.lit0 (Cert.KernelIdeal.S15x256.rowMajor i))

theorem klit0_val (x : Fin 3840) : Cert.KernelIdeal.lit0 x = Cert.KernelIdeal.lit0t x.val := by cases x; rfl
theorem rlit0_val (x : Fin 2048) : Cert.ReferenceIdeal.lit0 x = Cert.ReferenceIdeal.lit0t x.val := by cases x; rfl
theorem rlit1_val (x : Fin 1792) : Cert.ReferenceIdeal.lit1 x = Cert.ReferenceIdeal.lit1t x.val := by cases x; rfl

/-- Entry (a, k) of the kernel's table is entry a · 256 + k of its row-major list. -/
theorem klit0_rm (a : Fin 15) (k : Fin 256) : Cert.KernelIdeal.lit0 (Cert.KernelIdeal.S15x256.rowMajor (ix2 a k)) = Cert.KernelIdeal.lit0t (a.val * 256 + k.val) :=
  (klit0_val _).trans (congrArg Cert.KernelIdeal.lit0t (Shape.rowMajor_val_two (ix2 a k)))

/-- Entry (k, j) of the sign table is entry k · 8 + j of its row-major list. -/
theorem rlit0_rm (k : Fin 256) (j : Fin 8) : Cert.ReferenceIdeal.lit0 (Cert.ReferenceIdeal.S256x8.rowMajor (ix2 k j)) = Cert.ReferenceIdeal.lit0t (k.val * 8 + j.val) :=
  (rlit0_val _).trans (congrArg Cert.ReferenceIdeal.lit0t (Shape.rowMajor_val_two (ix2 k j)))

/-- Entry (k, j) of the pair table is entry k · 7 + j of its row-major list. -/
theorem rlit1_rm (k : Fin 256) (j : Fin 7) : Cert.ReferenceIdeal.lit1 (Cert.ReferenceIdeal.S256x7.rowMajor (ix2 k j)) = Cert.ReferenceIdeal.lit1t (k.val * 7 + j.val) :=
  (rlit1_val _).trans (congrArg Cert.ReferenceIdeal.lit1t (Shape.rowMajor_val_two (ix2 k j)))

/-- Row j < 8 of the kernel's table is column j of the sign table. -/
theorem kTable_lo (j : Fin 8) (k : Fin 256) :
    tableOf kTable ⟨j.val, by have := j.isLt; omega⟩ k = tableOf (signTable (F := Ideal)) k j :=
  congrArg (Ideal.ofBits .f32)
    ((klit0_rm ⟨j.val, by have := j.isLt; omega⟩ k).trans ((Cert.Tables.sign_rows j k).trans (rlit0_rm k j).symm))

/-- Row 8 + j of the kernel's table is column j of the pair table. -/
theorem kTable_hi (j : Fin 7) (k : Fin 256) :
    tableOf kTable ⟨8 + j.val, by have := j.isLt; omega⟩ k = tableOf (pairTable (F := Ideal)) k j :=
  congrArg (Ideal.ofBits .f32)
    ((klit0_rm ⟨8 + j.val, by have := j.isLt; omega⟩ k).trans ((Cert.Tables.pair_rows j k).trans (rlit1_rm k j).symm))

/-- Every sign is +1 or -1: a real number. -/
theorem sign_isReal (k : Fin 256) (j : Fin 8) : IsReal (tableOf (signTable (F := Ideal)) k j) := by
  have e : tableOf (signTable (F := Ideal)) k j = Ideal.ofBits .f32 (Cert.ReferenceIdeal.lit0t (k.val * 8 + j.val)) :=
    congrArg (Ideal.ofBits .f32) (rlit0_rm k j)
  rw [e]
  have hp : Cert.ReferenceIdeal.lit0t (k.val * 8 + j.val) = 0x3F800000#32 ∨ Cert.ReferenceIdeal.lit0t (k.val * 8 + j.val) = 0xBF800000#32 :=
    Cert.Tables.sign_pm ⟨k.val * 8 + j.val, by have := k.isLt; have := j.isLt; omega⟩
  rcases hp with h | h
  · rw [h, Cert.Tables.ofBits_one]; exact IsReal.coe _
  · rw [h, Cert.Tables.ofBits_neg_one]; exact IsReal.coe _

/-- Every product of neighbouring signs is +1 or -1: a real number. -/
theorem pair_isReal (k : Fin 256) (j : Fin 7) : IsReal (tableOf (pairTable (F := Ideal)) k j) := by
  have e : tableOf (pairTable (F := Ideal)) k j = Ideal.ofBits .f32 (Cert.ReferenceIdeal.lit1t (k.val * 7 + j.val)) :=
    congrArg (Ideal.ofBits .f32) (rlit1_rm k j)
  rw [e]
  have hp : Cert.ReferenceIdeal.lit1t (k.val * 7 + j.val) = 0x3F800000#32 ∨ Cert.ReferenceIdeal.lit1t (k.val * 7 + j.val) = 0xBF800000#32 :=
    Cert.Tables.pair_pm ⟨k.val * 7 + j.val, by have := k.isLt; have := j.isLt; omega⟩
  rcases hp with h | h
  · rw [h, Cert.Tables.ofBits_one]; exact IsReal.coe _
  · rw [h, Cert.Tables.ofBits_neg_one]; exact IsReal.coe _

/-- The float nearest π is a real number. -/
theorem pi_isReal : IsReal pi32 := Cert.Tables.ofBits_pi_real

/-! ## Transposed weights -/

/-- The kernel's perceptron over the transposed weights is the perceptron over the weights. -/
theorem netK_transpose (W1 : FVec Ideal Cert.KernelIdeal.S10x8 .f32) (b1 : FVec Ideal Cert.KernelIdeal.S10 .f32) (W2 : FVec Ideal Cert.KernelIdeal.S10x10 .f32)
    (b2 : FVec Ideal Cert.KernelIdeal.S10 .f32) (W3 : FVec Ideal Cert.KernelIdeal.S8x10 .f32) (b3 : FVec Ideal Cert.KernelIdeal.S8 .f32)
    (h1 : Cert.KernelIdeal.S10x8.Transposes [1, 0] Cert.KernelIdeal.S8x10) (h2 : Cert.KernelIdeal.S10x10.Transposes [1, 0] Cert.KernelIdeal.S10x10) (h3 : Cert.KernelIdeal.S8x10.Transposes [1, 0] Cert.KernelIdeal.S10x8) :
    Cert.KernelIdeal.Pay.netK (transpose Cert.KernelIdeal.S8x10 [1, 0] W1 h1) b1 (transpose Cert.KernelIdeal.S10x10 [1, 0] W2 h2) b2 (transpose Cert.KernelIdeal.S10x8 [1, 0] W3 h3) b3
      = netOf W1 b1 W2 b2 W3 b3 := by
  have e1 : (fun (c : Fin 10) (k : Fin 8) => transpose Cert.KernelIdeal.S8x10 [1, 0] W1 h1 (ix2 k c)) = fun c k => W1 (ix2 c k) :=
    funext fun c => funext fun k => transpose_ix2_apply W1 h1 k c
  have e2 : (fun (c : Fin 10) (k : Fin 10) => transpose Cert.KernelIdeal.S10x10 [1, 0] W2 h2 (ix2 k c)) = fun c k => W2 (ix2 c k) :=
    funext fun c => funext fun k => transpose_ix2_apply W2 h2 k c
  have e3 : (fun (c : Fin 8) (k : Fin 10) => transpose Cert.KernelIdeal.S10x8 [1, 0] W3 h3 (ix2 k c)) = fun c k => W3 (ix2 c k) :=
    funext fun c => funext fun k => transpose_ix2_apply W3 h3 k c
  unfold Cert.KernelIdeal.Pay.netK netOf
  rw [e1, e2, e3]

/-! ## The stored value of a pair of rows is the result for them -/

/-- For real input rows and real weights, what the kernel stores for a pair of rows is the mean cosine of the phase
    differences of their features. -/
theorem rowVal_eq (X1 X2 : Fin 8 → EReal) (hX1 : ∀ k, IsReal (X1 k)) (hX2 : ∀ k, IsReal (X2 k))
    (W1 : FVec Ideal Cert.KernelIdeal.S10x8 .f32) (b1 : FVec Ideal Cert.KernelIdeal.S10 .f32) (W2 : FVec Ideal Cert.KernelIdeal.S10x10 .f32)
    (b2 : FVec Ideal Cert.KernelIdeal.S10 .f32) (W3 : FVec Ideal Cert.KernelIdeal.S8x10 .f32) (b3 : FVec Ideal Cert.KernelIdeal.S8 .f32)
    (hn : (netOf W1 b1 W2 b2 W3 b3).Real)
    (h1 : Cert.KernelIdeal.S10x8.Transposes [1, 0] Cert.KernelIdeal.S8x10) (h2 : Cert.KernelIdeal.S10x10.Transposes [1, 0] Cert.KernelIdeal.S10x10) (h3 : Cert.KernelIdeal.S8x10.Transposes [1, 0] Cert.KernelIdeal.S10x8) :
    Cert.KernelIdeal.Pay.rowVal X1 X2 (transpose Cert.KernelIdeal.S8x10 [1, 0] W1 h1) b1 (transpose Cert.KernelIdeal.S10x10 [1, 0] W2 h2) b2 (transpose Cert.KernelIdeal.S10x8 [1, 0] W3 h3) b3 kTable
      = trace (tableOf (signTable (F := Ideal))) (tableOf (pairTable (F := Ideal)))
          (mlp (netOf W1 b1 W2 b2 W3 b3) X1) (mlp (netOf W1 b1 W2 b2 W3 b3) X2) := by
  unfold Cert.KernelIdeal.Pay.rowVal
  rw [netK_transpose]
  exact traceFused_eq _ _ _ kTable_lo kTable_hi sign_isReal pair_isReal pi_isReal _ _ (mlp_isReal hn hX1) (mlp_isReal hn hX2)

/-! ## The arrays the region finds -/

section Found

open Cert.KernelIdeal Cert.KernelIdeal.Gen

variable (m : (ℓ : Loc nD τ sig) → Buf (Elt Ideal) ℓ) (c : Dev nD)

/-- The table's buffer holds the table. -/
theorem V_main_cst : (V m c main_cst : S15x256.Idx → EReal) = kTable := by
  dsimp only [V, hostOps0]; after_results; rfl

/-- The three transposes' buffers hold the transposed weights. -/
theorem V_main_v0 : (V m c main_v0 : S8x10.Idx → EReal)
    = transpose S8x10 [1, 0] (m ((c : Thread nD τ).loc main_arg2)) transposes_S10x8_S8x10_1_0 := by
  dsimp only [V, hostOps0]; after_results
theorem V_main_v1 : (V m c main_v1 : S10x10.Idx → EReal)
    = transpose S10x10 [1, 0] (m ((c : Thread nD τ).loc main_arg4)) transposes_S10x10_S10x10_1_0 := by
  dsimp only [V, hostOps0]; after_results
theorem V_main_v2 : (V m c main_v2 : S10x8.Idx → EReal)
    = transpose S10x8 [1, 0] (m ((c : Thread nD τ).loc main_arg6)) transposes_S8x10_S10x8_1_0 := by
  dsimp only [V, hostOps0]; after_results

end Found

end Cert.Bridge

end
-- ==== Proof.Finite.lean ====
import proofs.«171358_j7756710937246_2_alg».proof.Defs
import Idealize.ShloMosaic.Lib.ReduceAll
import Idealize.ShloMosaic.Lib.ValueIdx

/-!
# The finiteness precondition, read back

The precondition is the conjunction, over the eight argument arrays, of "every element `x` has `|x| < +∞`".
At the ideal values (extended reals, with `|x| = max x (-x)` and `+∞ = ⊤`) this says that every element of
every argument array is a real number: `max x (-x) < ⊤` excludes both `x = ⊤` and `x = ⊥`.
-/

namespace Cert.Finite

open Idealize.ShloMosaic
open Cert.Pre_finite_inputs

/-- The scalar shape has exactly one index. -/
instance : Subsingleton Cert.Pre_finite_inputs.S_.Idx := ⟨fun _ _ => funext fun d => d.elim0⟩

/-- An extended real whose absolute value `max x (-x)` is below `⊤` is a real number. -/
theorem real_of_abs_lt_top {x : EReal} (h : max x (-x) < ⊤) : ∃ r : ℝ, x = (r : EReal) := by
  induction x using EReal.rec with
  | bot => simp at h
  | coe r => exact ⟨r, rfl⟩
  | top => simp at h

/-- The bit pattern `0x7F800000` denotes `+∞`. -/
theorem ofBits_inf : Ideal.ofBits .f32 0x7F800000#32 = (⊤ : EReal) := by simp [Ideal.ofBits, Ideal.ieee]

/-- One element: the comparison `|x| < +∞` coming out true says `x` is a real number. -/
theorem real_of_cmp {x : Ideal .f32}
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  by_cases hlt : max (x : EReal) (-(x : EReal)) < ⊤
  · exact real_of_abs_lt_top hlt
  · simp [hlt] at h

/-- One array: `all (|a| < +∞)` coming out true says every element of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1)
    (i : s.Idx) : ∃ r : ℝ, a i = (r : EReal) :=
  real_of_cmp (Host.reduce_andi_all _ _ hr hu _ e i)

/-- The precondition holding at the ideal values says every element of each of the eight argument arrays is a
    real number. -/
theorem real_of_fn [Cert.Pre_finite_inputs.Facts]
    (a0 a1 : FVec Ideal S65536x8 .f32) (a2 : FVec Ideal S10x8 .f32) (a3 : FVec Ideal S10 .f32)
    (a4 : FVec Ideal S10x10 .f32) (a5 : FVec Ideal S10 .f32) (a6 : FVec Ideal S8x10 .f32)
    (a7 : FVec Ideal S8 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2] at h0
  obtain ⟨h6, e7⟩ := IntOp.andi_eq_one.1 h0
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Finite
-- ==== Proof.lean ====
/-
  The certificate: the kernel, its idealization and the reference each run to completion leaving their arguments as they
  were, the idealization rewrites nothing, and at the ideal values the idealized kernel and the idealized reference end
  with the same result array.

  The result, entry r, is the mean over 256 basis states of the cosine of the difference of two phases, one per input row
  r of x1 and of x2; a phase is minus a contraction of the row's features (a three-layer perceptron of the row) and of the
  neighbour products of π minus the features with two tables of signs. The reference forms the two phases and subtracts;
  the kernel contracts the differences once, against the two tables set side by side. Under the precondition every input
  entry is a real number, so every feature is, and then the two contractions agree; everything after them (cosine, the
  sum, the division by 256) is the same on both sides.
-/
import proofs.«171358_j7756710937246_2_alg».proof.Defs
import proofs.«171358_j7756710937246_2_alg».proof.Proof.Gen.Kernel
import proofs.«171358_j7756710937246_2_alg».proof.Proof.Gen.Kernel.Frame
import proofs.«171358_j7756710937246_2_alg».proof.Proof.Gen.KernelIdeal
import proofs.«171358_j7756710937246_2_alg».proof.Proof.Gen.KernelIdeal.Frame
import proofs.«171358_j7756710937246_2_alg».proof.Proof.Gen.KernelIdeal.Value
import proofs.«171358_j7756710937246_2_alg».proof.Proof.Gen.ReferenceIdeal
import proofs.«171358_j7756710937246_2_alg».proof.Proof.Gen.Pre_finite_inputs
import proofs.«171358_j7756710937246_2_alg».proof.Proof.KernelValue
import proofs.«171358_j7756710937246_2_alg».proof.Proof.RefOut
import proofs.«171358_j7756710937246_2_alg».proof.Proof.RefValue
import proofs.«171358_j7756710937246_2_alg».proof.Proof.Bridge
import proofs.«171358_j7756710937246_2_alg».proof.Proof.Finite

noncomputable section

namespace Cert.Proof

open Idealize.ShloMosaic Idealize.ShloMosaic.ValueIdx Idealize.ShloMosaic.TcCoe Idealize.SL.Sem
open Cert.Spec Cert.Layers SageMath
open Cert.ReferenceIdeal.RefRun (signTable pairTable)

/-- Under the precondition, the output array the idealized kernel leaves — the blockwise function of the arrays its region
    finds — is the result function of the argument arrays: the region finds the arguments as launched, the weights
    transposed and the fused table; the inputs and weights are real; so each entry is the reference's (the regrouping law). -/
theorem kernel_value (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = (fun _ => 1#1)) :
    Cert.KernelIdeal.KValue.Gk (Cert.KernelIdeal.Gen.V m c Cert.KernelIdeal.main_arg0) (Cert.KernelIdeal.Gen.V m c Cert.KernelIdeal.main_arg1)
        (Cert.KernelIdeal.Gen.V m c Cert.KernelIdeal.main_v0) (Cert.KernelIdeal.Gen.V m c Cert.KernelIdeal.main_arg3)
        (Cert.KernelIdeal.Gen.V m c Cert.KernelIdeal.main_v1) (Cert.KernelIdeal.Gen.V m c Cert.KernelIdeal.main_arg5)
        (Cert.KernelIdeal.Gen.V m c Cert.KernelIdeal.main_v2) (Cert.KernelIdeal.Gen.V m c Cert.KernelIdeal.main_arg7)
        (Cert.KernelIdeal.Gen.V m c Cert.KernelIdeal.main_cst)
      = G (tableOf (signTable (F := Ideal))) (tableOf (pairTable (F := Ideal)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨h0, h1, h2, h3, h4, h5, h6, h7⟩ := Cert.Finite.real_of_fn _ _ _ _ _ _ _ _ hpre
  rw [Cert.KernelIdeal.Gen.V_main_arg0, Cert.KernelIdeal.Gen.V_main_arg1, Cert.KernelIdeal.Gen.V_main_arg3,
    Cert.KernelIdeal.Gen.V_main_arg5, Cert.KernelIdeal.Gen.V_main_arg7, Cert.Bridge.V_main_v0, Cert.Bridge.V_main_v1,
    Cert.Bridge.V_main_v2, Cert.Bridge.V_main_cst]
  funext i
  obtain ⟨r, rfl⟩ : ∃ r : Fin 65536, i = ix1 r := ⟨i 0, eq_ix1 i⟩
  rw [G_ix1]
  exact Cert.Bridge.rowVal_eq _ _ (fun _ => h0 _) (fun _ => h1 _) _ _ _ _ _ _
    ⟨fun _ _ => h2 _, fun _ => h3 _, fun _ _ => h4 _, fun _ => h5 _, fun _ _ => h6 _, fun _ => h7 _⟩ _ _ _

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with the result function of the (agreeing) arguments. -/
theorem algebraic : Cert.algebraic_KernelIdeal_ReferenceIdeal := by
  intro m ρ m' ρ' hpre hagree
  refine ⟨fun c => G (tableOf (signTable (F := Ideal))) (tableOf (pairTable (F := Ideal)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (kernel_value m c (hpre c)), (h c).2⟩) (Cert.KernelIdeal.KValue.run m ρ)
  · refine (θ_run Cert.ReferenceIdeal.defs _ _).mono (fun r h c => ⟨?_, (h c).2⟩)
      (Cert.ReferenceIdeal.RefRun.run (F := Ideal) m' ρ')
    obtain ⟨e0, e1, e2, e3, e4, e5, e6, e7⟩ := hagree c
    rw [(h c).1, Cert.ReferenceIdeal.RefValue.refOut_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
